-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x4 : Shape := ⟨2, ![800000, 4]⟩
abbrev S260x128 : Shape := ⟨2, ![260, 128]⟩
abbrev S128 : Shape := ⟨1, ![128]⟩
abbrev S128x128 : Shape := ⟨2, ![128, 128]⟩
abbrev S256x128 : Shape := ⟨2, ![256, 128]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x4 : S_.BroadcastsInDim S800000x4 (![] : Fin 0 → Fin S800000x4.rank)
  reducesTo_S800000x4_S_d0_1 : S800000x4.ReducesTo [0, 1] S_
  bcast_S_S260x128 : S_.BroadcastsInDim S260x128 (![] : Fin 0 → Fin S260x128.rank)
  reducesTo_S260x128_S_d0_1 : S260x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_arg11 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg7 : FVec F S128 .f32) (main_arg8 : FVec F S128x128 .f32) (main_arg9 : FVec F S128 .f32) (main_arg10 : FVec F S128 .f32) (main_arg11 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_v48 main_v49 main_v50

def fn_part1 {F : FTy → Type} [FloatOps F] (main_arg4 : FVec F S128x128 .f32) (main_arg5 : FVec F S128 .f32) (main_arg6 : FVec F S256x128 .f32) (main_arg7 : FVec F S128 .f32) (main_arg8 : FVec F S128x128 .f32) (main_arg9 : FVec F S128 .f32) (main_arg10 : FVec F S128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S50000x128 .f32) (main_arg1 : FVec F S800000x4 .f32) (main_arg2 : FVec F S260x128 .f32) (main_arg3 : FVec F S128 .f32) (main_arg4 : FVec F S128x128 .f32) (main_arg5 : FVec F S128 .f32) (main_arg6 : FVec F S256x128 .f32) (main_arg7 : FVec F S128 .f32) (main_arg8 : FVec F S128x128 .f32) (main_arg9 : FVec F S128 .f32) (main_arg10 : FVec F S128 .f32) (main_arg11 : FVec F S128 .f32) (main_arg12 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x4 .f32 := Host.absf main_arg1
  let main_cst_0 : FVec F S_ .f32 := constant S_ .f32 0x7F800000#32
  let main_v5 : FVec F S800000x4 .f32 := broadcastInDim S800000x4 ![] bcast_S_S800000x4 main_cst_0
  let main_v6 : IVec S800000x4 1 := cmpf .olt main_v4 main_v5
  let main_c_1 : IVec S_ 1 := constantI S_ 1 1#1
  let main_v7 : IVec S_ 1 := (fun x v => Host.reduce IntOp.andi x v reducesTo_S800000x4_S_d0_1 h_S_) main_v6 main_c_1
  let main_v8 : IVec S_ 1 := andi main_v3 main_v7
  let main_v9 : FVec F S260x128 .f32 := Host.absf main_arg2
  let main_cst_2 : FVec F S_ .f32 := constant S_ .f32 0x7F800000#32
  let main_v10 : FVec F S260x128 .f32 := broadcastInDim S260x128 ![] bcast_S_S260x128 main_cst_2
  let main_v11 : IVec S260x128 1 := cmpf .olt main_v9 main_v10
  let main_c_3 : IVec S_ 1 := constantI S_ 1 1#1
  let main_v12 : IVec S_ 1 := (fun x v => Host.reduce IntOp.andi x v reducesTo_S260x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S50000x128 : Shape := ⟨2, ![50000, 128]⟩
abbrev S800000x4 : Shape := ⟨2, ![800000, 4]⟩
abbrev S260x128 : Shape := ⟨2, ![260, 128]⟩
abbrev S128 : Shape := ⟨1, ![128]⟩
abbrev S128x128 : Shape := ⟨2, ![128, 128]⟩
abbrev S256x128 : Shape := ⟨2, ![256, 128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S4x128 : Shape := ⟨2, ![4, 128]⟩
abbrev S8000x128 : Shape := ⟨2, ![8000, 128]⟩
abbrev S8000x4 : Shape := ⟨2, ![8000, 4]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩

abbrev nBuf : Space → Nat
  | .hbm => 48
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S800000x4, .f32⟩
  | .hbm, ⟨2, _⟩ => ⟨S260x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S2x800000, .i32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S50000x128, .bf16⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .bf16⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .bf16⟩
  | .hbm, ⟨36, _⟩ => ⟨S800000x4, .bf16⟩
  | .hbm, ⟨37, _⟩ => ⟨S128x128, .f32⟩
  | .hbm, ⟨38, _⟩ => ⟨S128x128, .f32⟩
  | .hbm, ⟨39, _⟩ => ⟨S4x128, .f32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S128x128, .f32⟩
  | .hbm, ⟨46, _⟩ => ⟨S128x128, .f32⟩
  | .hbm, ⟨47, _⟩ => ⟨S50000x128, .f32⟩
  | .local _ .vmem, ⟨0, _⟩ => ⟨S8000x128, .bf16⟩
  | .local _ .vmem, ⟨1, _⟩ => ⟨S8000x128, .bf16⟩
  | .local _ .vmem, ⟨2, _⟩ => ⟨S8000x128, .bf16⟩
  | .local _ .vmem, ⟨3, _⟩ => ⟨S8000x128, .bf16⟩
  | .local _ .vmem, ⟨4, _⟩ => ⟨S8000x4, .bf16⟩
  | .local _ .vmem, ⟨5, _⟩ => ⟨S8000x4, .bf16⟩
  | .local _ .vmem, ⟨6, _⟩ => ⟨S128x128, .f32⟩
  | .local _ .vmem, ⟨7, _⟩ => ⟨S128x128, .f32⟩
  | .local _ .vmem, ⟨8, _⟩ => ⟨S4x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S8000x128, .f32⟩
  | .local _ .vmem, ⟨13, _⟩ => ⟨S8000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S128x128, .f32⟩
  | .local _ .vmem, ⟨20, _⟩ => ⟨S128, .f32⟩
  | .local _ .vmem, ⟨21, _⟩ => ⟨S128x128, .f32⟩
  | .local _ .vmem, ⟨22, _⟩ => ⟨S128, .f32⟩
  | .local _ .vmem, ⟨23, _⟩ => ⟨S128, .f32⟩
  | .local _ .vmem, ⟨24, _⟩ => ⟨S128, .f32⟩
  | .local _ .vmem, ⟨25, _⟩ => ⟨S2000x128, .f32⟩
  | .local _ .vmem, ⟨26, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg9_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem9_1 : DmaSem sig := 26

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x4 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S260x128_S128x128_0_0 : S260x128.Slices ![0, 0] S128x128
  slices_S260x128_S128x128_128_0 : S260x128.Slices ![128, 0] S128x128
  slices_S260x128_S4x128_256_0 : S260x128.Slices ![256, 0] S4x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x4_S8000x4_0_0 : ∀ a, (![0, 0] : Fin 2 → Nat) a + S8000x4.size a ≤ S8000x4.size a
  h_S8000x4 : 0 < S8000x4.numel
  shapeCasts_S8000x4_S8000x4 : S8000x4.ShapeCasts S8000x4
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4x128_S4x128_0_0 : ∀ a, (![0, 0] : Fin 2 → Nat) a + S4x128.size a ≤ S4x128.size a
  h_S4x128 : 0 < S4x128.numel
  shapeCasts_S4x128_S4x128 : S4x128.ShapeCasts S4x128
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  gather_S50000x128_S800000x1_S800000x128_1_0_n_n_0_1_1128_wf : GatherDims.WF S50000x128 S800000x1 S800000x128 [1] [0] [] [0] [] 1 ![1, 128]
  dot_S8000x128_S128x128_S8000x128_1_0_0_1_n_n_wf : DotDims.WF S8000x128 S128x128 S8000x128 [1] [0] [0] [1] [] []
  dot_S8000x4_S4x128_S8000x128_1_0_0_1_n_n_wf : DotDims.WF S8000x4 S4x128 S8000x128 [1] [0] [0] [1] [] []
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .bf16 = 32 ∨ (Rect.block (s := S800000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .bf16 = 32 ∨ (Rect.block (s := S800000x128) S8000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x4.size a ≤ S800000x4.size a
  hwx0_2 : ∀ i : grid0.Coords, EltTy.bits .bf16 = 32 ∨ (Rect.block (s := S800000x4) S8000x4.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x128.size a ≤ S4x128.size a
  hwx0_5 : ∀ i : grid0.Coords, EltTy.bits .f32 = 32 ∨ (Rect.block (s := S4x128) S4x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x128.size a ≤ S800000x128.size a
  hwx0_9 : ∀ i : grid0.Coords, EltTy.bits .f32 = 32 ∨ (Rect.block (s := S800000x128) S8000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x4_S4x128_S8000x128_1_0_0_1_n_n : DotDims S8000x4 S4x128 S8000x128 where
  lhsContracting := [1]
  rhsContracting := [0]
  lhsNonContracting := [0]
  rhsNonContracting := [1]
  lhsBatch := []
  rhsBatch := []
  wf := dot_S8000x4_S4x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v11) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S8000x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S4x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S8000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v29) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000x4 : Shape := ⟨2, ![800000, 4]⟩
abbrev S260x128 : Shape := ⟨2, ![260, 128]⟩
abbrev S128 : Shape := ⟨1, ![128]⟩
abbrev S128x128 : Shape := ⟨2, ![128, 128]⟩
abbrev S256x128 : Shape := ⟨2, ![256, 128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x260 : Shape := ⟨2, ![800000, 260]⟩
abbrev S1x128 : Shape := ⟨2, ![1, 128]⟩
abbrev S50000x256 : Shape := ⟨2, ![50000, 256]⟩
abbrev S50000 : Shape := ⟨1, ![50000]⟩
abbrev S50000x1 : Shape := ⟨2, ![50000, 1]⟩

abbrev nBuf : Space → Nat
  | .hbm => 105
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x4, .f32⟩
  | .hbm, ⟨2, _⟩ => ⟨S260x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S2x800000, .i32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S800000x260, .f32⟩
  | .hbm, ⟨36, _⟩ => ⟨S800000x128, .f32⟩
  | .hbm, ⟨37, _⟩ => ⟨S1x128, .f32⟩
  | .hbm, ⟨38, _⟩ => ⟨S800000x128, .f32⟩
  | .hbm, ⟨39, _⟩ => ⟨S800000x128, .f32⟩
  | .hbm, ⟨40, _⟩ => ⟨S800000x128, .f32⟩
  | .hbm, ⟨41, _⟩ => ⟨S800000x128, .f32⟩
  | .hbm, ⟨42, _⟩ => ⟨S_, .f32⟩
  | .hbm, ⟨43, _⟩ => ⟨S800000x128, .f32⟩
  | .hbm, ⟨44, _⟩ => ⟨S800000x128, .f32⟩
  | .hbm, ⟨45, _⟩ => ⟨S_, .f32⟩
  | .hbm, ⟨46, _⟩ => ⟨S800000x128, .f32⟩
  | .hbm, ⟨47, _⟩ => ⟨S800000x128, .f32⟩
  | .hbm, ⟨48, _⟩ => ⟨S800000x128, .f32⟩
  | .hbm, ⟨49, _⟩ => ⟨S800000x128, .f32⟩
  | .hbm, ⟨50, _⟩ => ⟨S1x128, .f32⟩
  | .hbm, ⟨51, _⟩ => ⟨S800000x128, .f32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x256, .f32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S50000, .f32⟩
  | .hbm, ⟨78, _⟩ => ⟨S50000x1, .f32⟩
  | .hbm, ⟨79, _⟩ => ⟨S_, .f32⟩
  | .hbm, ⟨80, _⟩ => ⟨S50000x1, .f32⟩
  | .hbm, ⟨81, _⟩ => ⟨S50000x1, .f32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S50000, .f32⟩
  | .hbm, ⟨87, _⟩ => ⟨S50000x1, .f32⟩
  | .hbm, ⟨88, _⟩ => ⟨S_, .f32⟩
  | .hbm, ⟨89, _⟩ => ⟨S50000x1, .f32⟩
  | .hbm, ⟨90, _⟩ => ⟨S50000x1, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S50000x1, .f32⟩
  | .hbm, ⟨95, _⟩ => ⟨S50000x1, .f32⟩
  | .hbm, ⟨96, _⟩ => ⟨S50000x1, .f32⟩
  | .hbm, ⟨97, _⟩ => ⟨S50000x128, .f32⟩
  | .hbm, ⟨98, _⟩ => ⟨S50000x128, .f32⟩
  | .hbm, ⟨99, _⟩ => ⟨S1x128, .f32⟩
  | .hbm, ⟨100, _⟩ => ⟨S50000x128, .f32⟩
  | .hbm, ⟨101, _⟩ => ⟨S50000x128, .f32⟩
  | .hbm, ⟨102, _⟩ => ⟨S1x128, .f32⟩
  | .hbm, ⟨103, _⟩ => ⟨S50000x128, .f32⟩
  | .hbm, ⟨104, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_3 : Ref sig .tc := ⟨.hbm, 76, rfl⟩
abbrev main_v42 : Ref sig .tc := ⟨.hbm, 77, rfl⟩
abbrev main_v43 : Ref sig .tc := ⟨.hbm, 78, rfl⟩
abbrev main_cst_4 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_5 : Ref sig .tc := ⟨.hbm, 85, rfl⟩
abbrev main_v49 : Ref sig .tc := ⟨.hbm, 86, rfl⟩
abbrev main_v50 : Ref sig .tc := ⟨.hbm, 87, rfl⟩
abbrev main_cst_6 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_7 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x4_S800000x260_d1 : Shape.Concatenates [S800000x128, S800000x128, S800000x4] S800000x260 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x260_S260x128_S800000x128_1_0_0_1_n_n_wf : DotDims.WF S800000x260 S260x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x260_S260x128_S800000x128_1_0_0_1_n_n : DotDims S800000x260 S260x128 S800000x128 where
  lhsContracting := [1]
  rhsContracting := [0]
  lhsNonContracting := [0]
  rhsNonContracting := [1]
  lhsBatch := []
  rhsBatch := []
  wf := dot_S800000x260_S260x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
import proofs.«135271_j51101520887961_2_alg».proof.Proof.Gen.KernelIdeal.Frame

/-!
# The layer's program run to its end, with the result array named

The program is two tiled kernels among stretches of whole-array operations: gathers of node rows by edge endpoints,
the message kernel over tiles of edges, a scatter-add of messages onto destination nodes, the update kernel over
tiles of nodes. Every weakly fair execution terminates, nothing faults, the thirteen argument arrays end as
launched, and the result array ends at the contents the last boundary of the run assigns to it: the update
kernel's tiles written back over the array the scatter stretch left. The following modules read those contents
back, boundary by boundary, to a function of the arguments.
-/

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates without a fault; at the
    end the result array holds what the run's last boundary assigns to it (`W4`: the update kernel's tiles folded
    over the contents after the scatter stretch) and every argument array is as launched. -/
theorem run : θ_run defs (onTc (τ := τ) (main (F := F))) ⟨m, fun _ => 0, ρ⟩ (fun r => ∀ c : Dev nD,
      r.2.mem ((c.tc : Thread nD τ).loc main_v29) = W4 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v29 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

end Cert.KernelIdeal.ValueRun

end
-- ==== Proof.HostReads.lean ====
import proofs.«135271_j51101520887961_2_alg».proof.Proof.Gen.KernelIdeal.Frame
import Idealize.ShloMosaic.Lib.StableHlo.Run

/-!
# What the two kernels find when they are entered

Before the message kernel the program computes, from the launch memory: the source and destination node of every
edge (rows 0 and 1 of the edge index), each made non-negative by adding the node count where it is negative; the
node rows gathered at those indices; the edge features; the three row blocks of the first message weight matrix.
Between the kernels it scatters the message array onto destination nodes, adding (into zeros, by the raw destination
index), and cuts the first update weight matrix into its two row blocks. Each lemma here reads one buffer at a
kernel's entry as those operations applied to the launch contents of the arguments (and, for the scatter, to the
message array the first kernel left).
-/

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo

variable {F : FTy → Type} [FloatOps F]

/-! ## The operations, as functions of the arguments -/

/-- Row 0 of the edge index as a flat vector: every edge's source node. -/
def srcIdx (x12 : (⟨S2x800000, .i32⟩ : BufTy).Contents (Elt F)) : (⟨S800000, .i32⟩ : BufTy).Contents (Elt F) :=
  shapeCast S800000 (extractStridedSlice S1x800000 ![0, 0] x12 slices_S2x800000_S1x800000_0_0) shapeCasts_S1x800000_S800000

/-- Row 1 of the edge index as a flat vector: every edge's destination node. -/
def dstIdx (x12 : (⟨S2x800000, .i32⟩ : BufTy).Contents (Elt F)) : (⟨S800000, .i32⟩ : BufTy).Contents (Elt F) :=
  shapeCast S800000 (extractStridedSlice S1x800000 ![1, 0] x12 slices_S2x800000_S1x800000_1_0) shapeCasts_S1x800000_S800000

/-- An index vector with the node count added where it is negative. -/
def wrapIdx (v : (⟨S800000, .i32⟩ : BufTy).Contents (Elt F)) : (⟨S800000, .i32⟩ : BufTy).Contents (Elt F) :=
  select (cmpi .slt v (broadcastInDim S800000 ![] bcast_S_S800000 (constantI S_ 32 0#32)))
    (addi v (broadcastInDim S800000 ![] bcast_S_S800000 (constantI S_ 32 50000#32))) v

/-- The node rows (in the narrower float format) gathered at an index vector. -/
def gatherRows (x0 : (⟨S50000x128, .f32⟩ : BufTy).Contents (Elt F)) (v : (⟨S800000, .i32⟩ : BufTy).Contents (Elt F)) :
    (⟨S800000x128, .bf16⟩ : BufTy).Contents (Elt F) :=
  Host.gather gather_S50000x128_S800000x1_S800000x128_1_0_n_n_0_1_1128 (truncf .bf16 x0 bitsLt_bf16_f32)
    (broadcastInDim S800000x1 ![0] bcast_S800000_S800000x1_0 (wrapIdx v))

/-- Messages summed onto their destination nodes, starting from zeros. -/
def scatterRows (v : (⟨S800000, .i32⟩ : BufTy).Contents (Elt F)) (msgs : (⟨S800000x128, .f32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 v) msgs

variable (m : (ℓ : Loc nD τ sig) → Buf (Elt F) ℓ) (ρ : Dev nD → PrngReg)

/-! ## At the message kernel's entry -/

theorem V1_src (c : Dev nD) : V1 m ρ c main_v11
    = gatherRows (m ((c : Thread nD τ).loc main_arg0)) (srcIdx (m ((c : Thread nD τ).loc main_arg12))) := by
  show StableHlo.after hostOps0 (W0 m ρ c) (Proc.devRef .tc main_v11) = _
  after_results <;> rfl

set_option maxHeartbeats 2000000 in
theorem V1_dst (c : Dev nD) : V1 m ρ c main_v18
    = gatherRows (m ((c : Thread nD τ).loc main_arg0)) (dstIdx (m ((c : Thread nD τ).loc main_arg12))) := by
  show StableHlo.after hostOps0 (W0 m ρ c) (Proc.devRef .tc main_v18) = _
  after_results <;> rfl

theorem V1_edge (c : Dev nD) : V1 m ρ c main_v19 = truncf .bf16 (m ((c : Thread nD τ).loc main_arg1)) bitsLt_bf16_f32 := by
  show StableHlo.after hostOps0 (W0 m ρ c) (Proc.devRef .tc main_v19) = _
  after_results <;> rfl

theorem V1_wa (c : Dev nD) : V1 m ρ c main_v20
    = extractStridedSlice S128x128 ![0, 0] (m ((c : Thread nD τ).loc main_arg2)) slices_S260x128_S128x128_0_0 := by
  show StableHlo.after hostOps0 (W0 m ρ c) (Proc.devRef .tc main_v20) = _
  after_results <;> rfl

theorem V1_wb (c : Dev nD) : V1 m ρ c main_v21
    = extractStridedSlice S128x128 ![128, 0] (m ((c : Thread nD τ).loc main_arg2)) slices_S260x128_S128x128_128_0 := by
  show StableHlo.after hostOps0 (W0 m ρ c) (Proc.devRef .tc main_v21) = _
  after_results <;> rfl

theorem V1_wc (c : Dev nD) : V1 m ρ c main_v22
    = extractStridedSlice S4x128 ![256, 0] (m ((c : Thread nD τ).loc main_arg2)) slices_S260x128_S4x128_256_0 := by
  show StableHlo.after hostOps0 (W0 m ρ c) (Proc.devRef .tc main_v22) = _
  after_results <;> rfl

theorem V1_arg3 (c : Dev nD) : V1 m ρ c main_arg3 = m ((c : Thread nD τ).loc main_arg3) := by
  show StableHlo.after hostOps0 (W0 m ρ c) (Proc.devRef .tc main_arg3) = _
  after_results <;> rfl

theorem V1_arg4 (c : Dev nD) : V1 m ρ c main_arg4 = m ((c : Thread nD τ).loc main_arg4) := by
  show StableHlo.after hostOps0 (W0 m ρ c) (Proc.devRef .tc main_arg4) = _
  after_results <;> rfl

theorem V1_arg5 (c : Dev nD) : V1 m ρ c main_arg5 = m ((c : Thread nD τ).loc main_arg5) := by
  show StableHlo.after hostOps0 (W0 m ρ c) (Proc.devRef .tc main_arg5) = _
  after_results <;> rfl

/-- The flat destination index, the first update weight matrix and the arguments the update kernel reads are not
    touched by the message kernel: after it they are what the first stretch left. -/
theorem W2_dst (c : Dev nD) : W2 m ρ c (Proc.devRef .tc main_v3) = dstIdx (m ((c : Thread nD τ).loc main_arg12)) := by
  rw [W2_of_ne m ρ c main_v3 (by decide)]
  show StableHlo.after hostOps0 (W0 m ρ c) (Proc.devRef .tc main_v3) = _
  after_results <;> rfl

theorem W2_arg (c : Dev nD) (b : Ref sig .tc) (hb : ∀ w, Pipeline.arrRef spec0 w ≠ b)
    (h0 : StableHlo.after hostOps0 (W0 m ρ c) (Proc.devRef .tc b) = W0 m ρ c (Proc.devRef .tc b)) :
    W2 m ρ c (Proc.devRef .tc b) = W0 m ρ c (Proc.devRef .tc b) :=
  (W2_of_ne m ρ c b hb).trans h0

/-! ## At the update kernel's entry -/

theorem W2_arg0 (c : Dev nD) : W2 m ρ c (Proc.devRef .tc main_arg0) = m ((c : Thread nD τ).loc main_arg0) := by
  rw [W2_of_ne m ρ c main_arg0 (by decide)]
  show StableHlo.after hostOps0 (W0 m ρ c) (Proc.devRef .tc main_arg0) = _
  after_results <;> rfl

theorem W2_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results <;> rfl

theorem W2_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results <;> rfl

theorem W2_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results <;> rfl

theorem W2_arg9 (c : Dev nD) : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results <;> rfl

theorem W2_arg10 (c : Dev nD) : W2 m ρ c (Proc.devRef .tc main_arg10) = m ((c : Thread nD τ).loc main_arg10) := by
  rw [W2_of_ne m ρ c main_arg10 (by decide)]
  show StableHlo.after hostOps0 (W0 m ρ c) (Proc.devRef .tc main_arg10) = _
  after_results <;> rfl

theorem W2_arg11 (c : Dev nD) : W2 m ρ c (Proc.devRef .tc main_arg11) = m ((c : Thread nD τ).loc main_arg11) := by
  rw [W2_of_ne m ρ c main_arg11 (by decide)]
  show StableHlo.after hostOps0 (W0 m ρ c) (Proc.devRef .tc main_arg11) = _
  after_results <;> rfl

/-- The aggregated messages: the message array the first kernel left, summed onto destination nodes. -/
theorem V3_agg (c : Dev nD) : V3 m ρ c main_v26
    = scatterRows (dstIdx (m ((c : Thread nD τ).loc main_arg12))) (W2 m ρ c (Proc.devRef .tc main_v23)) := by
  show StableHlo.after hostOps1 (W2 m ρ c) (Proc.devRef .tc main_v26) = _
  after_results
  rw [W2_dst m ρ c] <;> rfl

theorem V3_ua (c : Dev nD) : V3 m ρ c main_v27
    = extractStridedSlice S128x128 ![0, 0] (m ((c : Thread nD τ).loc main_arg6)) slices_S256x128_S128x128_0_0 := by
  show StableHlo.after hostOps1 (W2 m ρ c) (Proc.devRef .tc main_v27) = _
  after_results
  rw [W2_arg6 m ρ c]

theorem V3_ub (c : Dev nD) : V3 m ρ c main_v28
    = extractStridedSlice S128x128 ![128, 0] (m ((c : Thread nD τ).loc main_arg6)) slices_S256x128_S128x128_128_0 := by
  show StableHlo.after hostOps1 (W2 m ρ c) (Proc.devRef .tc main_v28) = _
  after_results
  rw [W2_arg6 m ρ c]

theorem V3_arg0 (c : Dev nD) : V3 m ρ c main_arg0 = m ((c : Thread nD τ).loc main_arg0) := by
  show StableHlo.after hostOps1 (W2 m ρ c) (Proc.devRef .tc main_arg0) = _
  after_results
  exact W2_arg0 m ρ c

theorem V3_arg7 (c : Dev nD) : V3 m ρ c main_arg7 = m ((c : Thread nD τ).loc main_arg7) := by
  show StableHlo.after hostOps1 (W2 m ρ c) (Proc.devRef .tc main_arg7) = _
  after_results
  exact W2_arg7 m ρ c

theorem V3_arg8 (c : Dev nD) : V3 m ρ c main_arg8 = m ((c : Thread nD τ).loc main_arg8) := by
  show StableHlo.after hostOps1 (W2 m ρ c) (Proc.devRef .tc main_arg8) = _
  after_results
  exact W2_arg8 m ρ c

theorem V3_arg9 (c : Dev nD) : V3 m ρ c main_arg9 = m ((c : Thread nD τ).loc main_arg9) := by
  show StableHlo.after hostOps1 (W2 m ρ c) (Proc.devRef .tc main_arg9) = _
  after_results
  exact W2_arg9 m ρ c

theorem V3_arg10 (c : Dev nD) : V3 m ρ c main_arg10 = m ((c : Thread nD τ).loc main_arg10) := by
  show StableHlo.after hostOps1 (W2 m ρ c) (Proc.devRef .tc main_arg10) = _
  after_results
  exact W2_arg10 m ρ c

theorem V3_arg11 (c : Dev nD) : V3 m ρ c main_arg11 = m ((c : Thread nD τ).loc main_arg11) := by
  show StableHlo.after hostOps1 (W2 m ρ c) (Proc.devRef .tc main_arg11) = _
  after_results
  exact W2_arg11 m ρ c

end Cert.KernelIdeal.HostReads

end
-- ==== Proof.LayerSpec.lean ====
import Idealize.ShloMosaic.PureOps.Ideal
import Idealize.ShloMosaic.PureOps.Ideal.Laws
import Idealize.ShloMosaic.Lib.ValueIdx

/-!
# One message-passing layer, row by row, on the extended reals

A graph layer over nodes with 128 features and edges with 4 features. For an edge, the MESSAGE is a two-layer
perceptron of (source row, destination row, edge row): hidden = W₁ᵀ·[src; dst; edge] + b₁, activation silu,
output = W₂ᵀ·silu(hidden) + b₂. Messages are summed per destination node (not here: that sum is one shared array
operation). For a node, the UPDATE is a two-layer perceptron of (node row, aggregated row), added back to the
node row, then normalised along the row: (r − mean r) · (var r + ε)^(-1/2) · γ + β.

Each network is written twice: in BLOCK form, every input row against its own block of the first weight matrix
(three sums of lengths 128, 128, 4 for the message; two of length 128 for the update), and in JOINED form, the
rows laid end to end against the whole matrix (one sum of length 260, resp. 256). The two forms agree because a
finite sum over `Fin (a + b)` is the sum over `Fin a` plus the sum over `Fin b`; addition of extended reals is
commutative and associative, so no finiteness is needed.
-/

noncomputable section

namespace Cert.Layer

open Idealize.ShloMosaic Idealize.ShloMosaic.ValueIdx

/-- A matrix of extended reals with literal extents. -/
abbrev Mat (r c : Nat) : Type := (⟨2, ![r, c]⟩ : Shape).Idx → EReal
/-- A vector of extended reals with a literal extent. -/
abbrev Row (n : Nat) : Type := (⟨1, ![n]⟩ : Shape).Idx → EReal

/-- The f32 word of 128, the length of a feature row. -/
abbrev w128 : EReal := Ideal.ofBits .f32 0x43000000#32
/-- The f32 word of the layer norm's ε. -/
abbrev wEps : EReal := Ideal.ofBits .f32 0x3727C5AC#32

/-- `x · σ(x)` with σ the logistic function `1 / (1 + e⁻ˣ)`. -/
def silu (x : EReal) : EReal := x * Ideal.logistic x

/-! ## Splitting a sum over rows laid end to end -/

/-- A sum over 256 = 128 + 128 indices is the sum over the first 128 plus the sum over the last 128. -/
theorem sum_split_256 (f : Fin 256 → EReal) :
    ∑ a : Fin 256, f a
      = (∑ a : Fin 128, f ⟨a.val, by omega⟩) + ∑ a : Fin 128, f ⟨128 + a.val, by omega⟩ := by
  rw [show (∑ a : Fin 256, f a) = ∑ a : Fin (128 + 128), f a from rfl, Fin.sum_univ_add]
  rfl

/-- A sum over 260 = 128 + 128 + 4 indices splits into its three stretches. -/
theorem sum_split_260 (f : Fin 260 → EReal) :
    ∑ a : Fin 260, f a
      = (∑ a : Fin 128, f ⟨a.val, by omega⟩) + (∑ a : Fin 128, f ⟨128 + a.val, by omega⟩)
        + ∑ a : Fin 4, f ⟨256 + a.val, by omega⟩ := by
  rw [show (∑ a : Fin 260, f a) = ∑ a : Fin (256 + 4), f a from rfl, Fin.sum_univ_add]
  rw [show (∑ a : Fin 256, f (Fin.castAdd 4 a)) = ∑ a : Fin 256, (fun b : Fin 256 => f ⟨b.val, by omega⟩) a from rfl,
    sum_split_256]
  rfl

/-! ## The message network on one edge -/

/-- Hidden unit `k` of the message network before the activation, BLOCK form. -/
def msgHidden (xs xd : Fin 128 → EReal) (xe : Fin 4 → EReal) (Wa Wb : Mat 128 128) (Wc : Mat 4 128) (b1 : Row 128)
    (k : Fin 128) : EReal :=
  (∑ a : Fin 128, xs a * Wa (ix2 a k)) + (∑ a : Fin 128, xd a * Wb (ix2 a k))
    + (∑ a : Fin 4, xe a * Wc (ix2 a k)) + b1 (ix1 k)

/-- Component `j` of an edge's message, BLOCK form. -/
def msgRow (xs xd : Fin 128 → EReal) (xe : Fin 4 → EReal) (Wa Wb : Mat 128 128) (Wc : Mat 4 128) (b1 : Row 128)
    (W2 : Mat 128 128) (b2 : Row 128) (j : Fin 128) : EReal :=
  (∑ k : Fin 128, silu (msgHidden xs xd xe Wa Wb Wc b1 k) * W2 (ix2 k j)) + b2 (ix1 j)

/-- Component `j` of an edge's message, JOINED form: `cat` is the source, destination and edge rows end to end. -/
def msgRowCat (cat : Fin 260 → EReal) (W1 : Mat 260 128) (b1 : Row 128) (W2 : Mat 128 128) (b2 : Row 128)
    (j : Fin 128) : EReal :=
  (∑ k : Fin 128, silu ((∑ a : Fin 260, cat a * W1 (ix2 a k)) + b1 (ix1 k)) * W2 (ix2 k j)) + b2 (ix1 j)

/-- The two forms of the message agree when `cat` is the three rows end to end and `Wa`, `Wb`, `Wc` are the
    matching row blocks of `W1`. -/
theorem msgRowCat_eq_msgRow (cat : Fin 260 → EReal) (W1 : Mat 260 128) (b1 : Row 128) (W2 : Mat 128 128) (b2 : Row 128)
    (xs xd : Fin 128 → EReal) (xe : Fin 4 → EReal) (Wa Wb : Mat 128 128) (Wc : Mat 4 128)
    (hs : ∀ a : Fin 128, cat ⟨a.val, by omega⟩ = xs a) (hd : ∀ a : Fin 128, cat ⟨128 + a.val, by omega⟩ = xd a)
    (he : ∀ a : Fin 4, cat ⟨256 + a.val, by omega⟩ = xe a)
    (ha : ∀ (a k : Fin 128), W1 (ix2 (⟨a.val, by omega⟩ : Fin 260) k) = Wa (ix2 a k))
    (hb : ∀ (a k : Fin 128), W1 (ix2 (⟨128 + a.val, by omega⟩ : Fin 260) k) = Wb (ix2 a k))
    (hc : ∀ (a : Fin 4) (k : Fin 128), W1 (ix2 (⟨256 + a.val, by omega⟩ : Fin 260) k) = Wc (ix2 a k))
    (j : Fin 128) :
    msgRowCat cat W1 b1 W2 b2 j = msgRow xs xd xe Wa Wb Wc b1 W2 b2 j := by
  unfold msgRowCat msgRow msgHidden
  refine congrArg (· + b2 (ix1 j)) (Finset.sum_congr rfl fun k _ => ?_)
  rw [sum_split_260]
  simp only [hs, hd, he, ha, hb, hc]

/-! ## The update network and the normalisation on one node -/

/-- Hidden unit `k` of the update network before the activation, BLOCK form. -/
def updHidden (nf ag : Fin 128 → EReal) (Ua Ub : Mat 128 128) (c1 : Row 128) (k : Fin 128) : EReal :=
  (∑ a : Fin 128, nf a * Ua (ix2 a k)) + (∑ a : Fin 128, ag a * Ub (ix2 a k)) + c1 (ix1 k)

/-- The node row plus the update network's output, BLOCK form. -/
def updRes (nf ag : Fin 128 → EReal) (Ua Ub : Mat 128 128) (c1 : Row 128) (U2 : Mat 128 128) (c2 : Row 128)
    (j : Fin 128) : EReal :=
  nf j + ((∑ k : Fin 128, silu (updHidden nf ag Ua Ub c1 k) * U2 (ix2 k j)) + c2 (ix1 j))

/-- The node row plus the update network's output, JOINED form: `cat` is the node row and the aggregated row end to end. -/
def updResCat (nf : Fin 128 → EReal) (cat : Fin 256 → EReal) (U1 : Mat 256 128) (c1 : Row 128) (U2 : Mat 128 128)
    (c2 : Row 128) (j : Fin 128) : EReal :=
  nf j + ((∑ k : Fin 128, silu ((∑ a : Fin 256, cat a * U1 (ix2 a k)) + c1 (ix1 k)) * U2 (ix2 k j)) + c2 (ix1 j))

/-- The mean of a row: its sum divided by 128. -/
def rowMean (r : Fin 128 → EReal) : EReal := Ideal.div (∑ k : Fin 128, r k) w128

/-- The variance of a row: the mean of the squared deviations from the mean. -/
def rowVar (r : Fin 128 → EReal) : EReal :=
  Ideal.div (∑ k : Fin 128, (r k - rowMean r) * (r k - rowMean r)) w128

/-- Layer normalisation of a row, component `j`: `(r − μ) · (σ² + ε)^(-1/2) · γ + β`. -/
def lnRow (r : Fin 128 → EReal) (g b : Row 128) (j : Fin 128) : EReal :=
  (r j - rowMean r) * Ideal.rsqrt (rowVar r + wEps) * g (ix1 j) + b (ix1 j)

/-- A node's new row, BLOCK form. -/
def updRow (nf ag : Fin 128 → EReal) (Ua Ub : Mat 128 128) (c1 : Row 128) (U2 : Mat 128 128) (c2 : Row 128)
    (g b : Row 128) (j : Fin 128) : EReal :=
  lnRow (updRes nf ag Ua Ub c1 U2 c2) g b j

/-- A node's new row, JOINED form. -/
def updRowCat (nf : Fin 128 → EReal) (cat : Fin 256 → EReal) (U1 : Mat 256 128) (c1 : Row 128) (U2 : Mat 128 128)
    (c2 : Row 128) (g b : Row 128) (j : Fin 128) : EReal :=
  lnRow (updResCat nf cat U1 c1 U2 c2) g b j

/-- The two forms of the update agree when `cat` is the node row and the aggregated row end to end and `Ua`, `Ub`
    are the matching row blocks of `U1`. -/
theorem updRowCat_eq_updRow (nf ag : Fin 128 → EReal) (cat : Fin 256 → EReal) (U1 : Mat 256 128) (c1 : Row 128)
    (U2 : Mat 128 128) (c2 : Row 128) (g b : Row 128) (Ua Ub : Mat 128 128)
    (hn : ∀ a : Fin 128, cat ⟨a.val, by omega⟩ = nf a) (hg : ∀ a : Fin 128, cat ⟨128 + a.val, by omega⟩ = ag a)
    (ha : ∀ (a k : Fin 128), U1 (ix2 (⟨a.val, by omega⟩ : Fin 256) k) = Ua (ix2 a k))
    (hb : ∀ (a k : Fin 128), U1 (ix2 (⟨128 + a.val, by omega⟩ : Fin 256) k) = Ub (ix2 a k))
    (j : Fin 128) :
    updRowCat nf cat U1 c1 U2 c2 g b j = updRow nf ag Ua Ub c1 U2 c2 g b j := by
  unfold updRowCat updRow
  refine congrArg (fun r => lnRow r g b j) (funext fun j' => ?_)
  unfold updResCat updRes updHidden
  refine congrArg (fun s => nf j' + (s + c2 (ix1 j'))) (Finset.sum_congr rfl fun k _ => ?_)
  rw [sum_split_256]
  simp only [hn, hg, ha, hb]

end Cert.Layer

end
-- ==== Proof.MsgRegion.lean ====
import proofs.«135271_j51101520887961_2_alg».proof.Proof.Gen.KernelIdeal.Frame
import proofs.«135271_j51101520887961_2_alg».proof.Proof.LayerSpec
import Idealize.ShloMosaic.Lib.Pipeline.Value
import Idealize.ShloMosaic.Lib.ValueIdx

/-!
# The message kernel's output array

The message kernel runs over 100 tiles of 8000 edges. At tile `t` it reads rows `8000·t … 8000·t + 7999` of the
gathered source rows, the gathered destination rows and the edge features, and the whole of the three weight
blocks, the two bias rows and the second weight matrix; it writes rows `8000·t … 8000·t + 7999` of the message
array. If the body's value at row `p` of a tile is the message function of row `p` of its three row inputs
(`hpay`), then every tile is the matching row range of ONE array function `msgArr`, and since the 100 tiles cover
all 800000 rows the array ends holding `msgArr` of the arrays the kernel found when it was entered.
-/

set_option maxRecDepth 16384

noncomputable section

namespace Cert.Layer

open Idealize.ShloMosaic Idealize.ShloMosaic.ValueIdx

/-- Every edge's message as one array: row `e` is the message function of row `e` of the three row inputs. -/
def msgArr (xs xd : Mat 800000 128) (xe : Mat 800000 4) (Wa Wb : Mat 128 128) (Wc : Mat 4 128) (b1 : Row 128)
    (W2 : Mat 128 128) (b2 : Row 128) : Mat 800000 128 :=
  fun i => msgRow (fun a => xs (ix2 (i 0) a)) (fun a => xd (ix2 (i 0) a)) (fun a => xe (ix2 (i 0) a)) Wa Wb Wc b1 W2 b2 (i 1)

end Cert.Layer

namespace Cert.KernelIdeal.MsgRegion

open Cert.KernelIdeal Cert.KernelIdeal.Gen Cert.Layer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The printed block indices, decided over the 100 tiles: the three row inputs and the output move with the tile
    along the rows; the weights and biases stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

theorem tile_lt (t : Fin cfg0.N) : t.val < 100 := lt_of_lt_of_eq t.isLt N_0

/-- Row `p` of tile `t` is row `8000·t + p` of the array. -/
def rowOf (t : Fin cfg0.N) (p : Fin 8000) : Fin 800000 :=
  ⟨t.val * 8000 + p.val, by have := tile_lt t; have := p.isLt; omega⟩

/-- What the body's arithmetic is assumed to compute at row `p`, column `q` of a tile: the message function of row `p`
    of its three row inputs against the whole weight blocks. -/
def PayloadSpec : Prop :=
  ∀ (x0 x1 : FVec Ideal S8000x128 .bf16) (x2 : FVec Ideal S8000x4 .bf16) (x3 x4 : FVec Ideal S128x128 .f32)
    (x5 : FVec Ideal S4x128 .f32) (x6 : FVec Ideal S128 .f32) (x7 : FVec Ideal S128x128 .f32) (x8 : FVec Ideal S128 .f32)
    (p : Fin 8000) (q : Fin 128),
    k0_pay1 (F := Ideal) x0 x1 x2 x3 x4 x5 x6 x7 x8 (ix2 p q)
      = msgRow (fun a => x0 (ix2 p a)) (fun a => x1 (ix2 p a)) (fun a => x2 (ix2 p a)) x3 x4 x5 x6 x7 x8 q

/-! ## The tiles' reads -/

/-- Tile `t` of the gathered source rows, at row `p`: row `8000·t + p` of the array. -/
theorem src_at (c : Dev nD) (t : Fin cfg0.N) (p : Fin 8000) (a : Fin 128) :
    iblk0 V c 0 t (ix2 p a) = V c main_v11 (ix2 (rowOf t p) a) := by
  obtain ⟨e0, e1, -⟩ := idx_facts t
  show V c main_v11 (((cfg0.win 0).blk t).view.emb (ix2 p a)) = _
  refine congrArg (V c main_v11) (funext fun d => Fin.ext ?_)
  match d with
  | ⟨0, _⟩ => show win0_0.index t (0 : Fin 2) * 8000 + 1 * p.val = t.val * 8000 + p.val; rw [e0]; omega
  | ⟨1, _⟩ => show win0_0.index t (1 : Fin 2) * 128 + 1 * a.val = a.val; rw [e1]; omega

/-- Tile `t` of the gathered destination rows, at row `p`. -/
theorem dst_at (c : Dev nD) (t : Fin cfg0.N) (p : Fin 8000) (a : Fin 128) :
    iblk0 V c 1 t (ix2 p a) = V c main_v18 (ix2 (rowOf t p) a) := by
  obtain ⟨-, -, e0, e1, -⟩ := idx_facts t
  show V c main_v18 (((cfg0.win 1).blk t).view.emb (ix2 p a)) = _
  refine congrArg (V c main_v18) (funext fun d => Fin.ext ?_)
  match d with
  | ⟨0, _⟩ => show win0_1.index t (0 : Fin 2) * 8000 + 1 * p.val = t.val * 8000 + p.val; rw [e0]; omega
  | ⟨1, _⟩ => show win0_1.index t (1 : Fin 2) * 128 + 1 * a.val = a.val; rw [e1]; omega

/-- Tile `t` of the edge features, at row `p`. -/
theorem edge_at (c : Dev nD) (t : Fin cfg0.N) (p : Fin 8000) (a : Fin 4) :
    iblk0 V c 2 t (ix2 p a) = V c main_v19 (ix2 (rowOf t p) a) := by
  obtain ⟨-, -, -, -, e0, e1, -⟩ := idx_facts t
  show V c main_v19 (((cfg0.win 2).blk t).view.emb (ix2 p a)) = _
  refine congrArg (V c main_v19) (funext fun d => Fin.ext ?_)
  match d with
  | ⟨0, _⟩ => show win0_2.index t (0 : Fin 2) * 8000 + 1 * p.val = t.val * 8000 + p.val; rw [e0]; omega
  | ⟨1, _⟩ => show win0_2.index t (1 : Fin 2) * 4 + 1 * a.val = a.val; rw [e1]; omega

/-- The first weight block is read whole at every tile. -/
theorem wa_whole (c : Dev nD) (t : Fin cfg0.N) : iblk0 V c 3 t = V c main_v20 := by
  obtain ⟨-, -, -, -, -, -, e0, e1, -⟩ := idx_facts t
  funext y
  show V c main_v20 (((cfg0.win 3).blk t).view.emb y) = V c main_v20 y
  refine congrArg (V c main_v20) (funext fun d => Fin.ext ?_)
  match d with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The second weight block is read whole at every tile. -/
theorem wb_whole (c : Dev nD) (t : Fin cfg0.N) : iblk0 V c 4 t = V c main_v21 := by
  obtain ⟨-, -, -, -, -, -, -, -, e0, e1, -⟩ := idx_facts t
  funext y
  show V c main_v21 (((cfg0.win 4).blk t).view.emb y) = V c main_v21 y
  refine congrArg (V c main_v21) (funext fun d => Fin.ext ?_)
  match d with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- The third weight block (four rows) is read whole at every tile. -/
theorem wc_whole (c : Dev nD) (t : Fin cfg0.N) : iblk0 V c 5 t = V c main_v22 := by
  obtain ⟨-, -, -, -, -, -, -, -, -, -, e0, e1, -⟩ := idx_facts t
  funext y
  show V c main_v22 (((cfg0.win 5).blk t).view.emb y) = V c main_v22 y
  refine congrArg (V c main_v22) (funext fun d => Fin.ext ?_)
  match d with
  | ⟨0, _⟩ => show win0_5.index t (0 : Fin 2) * 4 + 1 * (y 0).val = (y 0).val; rw [e0]; omega
  | ⟨1, _⟩ => show win0_5.index t (1 : Fin 2) * 128 + 1 * (y 1).val = (y 1).val; rw [e1]; omega

/-- The first bias row is read whole at every tile. -/
theorem b1_whole (c : Dev nD) (t : Fin cfg0.N) : iblk0 V c 6 t = V c main_arg3 := by
  obtain ⟨-, -, -, -, -, -, -, -, -, -, -, -, e0, -⟩ := idx_facts t
  funext y
  show V c main_arg3 (((cfg0.win 6).blk t).view.emb y) = V c main_arg3 y
  refine congrArg (V c main_arg3) (funext fun d => Fin.ext ?_)
  match d with
  | ⟨0, _⟩ => show win0_6.index t (0 : Fin 1) * 128 + 1 * (y 0).val = (y 0).val; rw [e0]; omega

/-- The second weight matrix is read whole at every tile. -/
theorem w2_whole (c : Dev nD) (t : Fin cfg0.N) : iblk0 V c 7 t = V c main_arg4 := by
  obtain ⟨-, -, -, -, -, -, -, -, -, -, -, -, -, e0, e1, -⟩ := idx_facts t
  funext y
  show V c main_arg4 (((cfg0.win 7).blk t).view.emb y) = V c main_arg4 y
  refine congrArg (V c main_arg4) (funext fun d => Fin.ext ?_)
  match d with
  | ⟨0, _⟩ => show win0_7.index t (0 : Fin 2) * 128 + 1 * (y 0).val = (y 0).val; rw [e0]; omega
  | ⟨1, _⟩ => show win0_7.index t (1 : Fin 2) * 128 + 1 * (y 1).val = (y 1).val; rw [e1]; omega

/-- The second bias row is read whole at every tile. -/
theorem b2_whole (c : Dev nD) (t : Fin cfg0.N) : iblk0 V c 8 t = V c main_arg5 := by
  obtain ⟨-, -, -, -, -, -, -, -, -, -, -, -, -, -, -, e0, -⟩ := idx_facts t
  funext y
  show V c main_arg5 (((cfg0.win 8).blk t).view.emb y) = V c main_arg5 y
  refine congrArg (V c main_arg5) (funext fun d => Fin.ext ?_)
  match d with
  | ⟨0, _⟩ => show win0_8.index t (0 : Fin 1) * 128 + 1 * (y 0).val = (y 0).val; rw [e0]; omega

/-- Entry `(p, q)` of the output tile `t` sits at `(8000·t + p, q)` of the message array. -/
theorem out_emb (t : Fin cfg0.N) (p : Fin 8000) (q : Fin 128) :
    ((cfg0.win 9).blk t).view.emb (ix2 p q) = ix2 (rowOf t p) q := by
  obtain ⟨-, -, -, -, -, -, -, -, -, -, -, -, -, -, -, -, e0, e1⟩ := idx_facts t
  refine funext fun d => Fin.ext ?_
  match d with
  | ⟨0, _⟩ => show win0_9.index t (0 : Fin 2) * 8000 + 1 * p.val = t.val * 8000 + p.val; rw [e0]; omega
  | ⟨1, _⟩ => show win0_9.index t (1 : Fin 2) * 128 + 1 * q.val = q.val; rw [e1]; omega

/-! ## What a tile writes back, and the array -/

/-- The array the kernel is claimed to leave: the message function of the arrays it found at entry. -/
abbrev result (c : Dev nD) : Mat 800000 128 :=
  msgArr (V c main_v11) (V c main_v18) (V c main_v19) (V c main_v20) (V c main_v21) (V c main_v22)
    (V c main_arg3) (V c main_arg4) (V c main_arg5)

/-- WHAT TILE `t` WRITES BACK is rows `8000·t …` of `result`. -/
theorem flushed_eq (hpay : PayloadSpec) (c : Dev nD) (t : Fin cfg0.N) :
    (dat0 V c).flushed 9 t = ((cfg0.win 9).blk t).view.read (Elt Ideal) (result V c) := by
  show (cfg0.win 9).cut (grid0.coords t) ((dat0 V c).after 9 t) = _
  rw [after0_9]
  unfold out0_9
  rw [View.canon_unit_zero hz]
  simp only [View.ld_unit_zero (S := S8000x128) hz, View.ld_unit_zero (S := S8000x4) hz, View.ld_unit_zero (S := S128x128) hz,
    View.ld_unit_zero (S := S4x128) hz, View.ld_unit_zero (S := S128) hz1]
  funext j
  obtain ⟨p, q, rfl⟩ : ∃ (p : Fin 8000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (iblk0 V c 5 t)
      (iblk0 V c 6 t) (iblk0 V c 7 t) (iblk0 V c 8 t) (ix2 p q) = result V c (((cfg0.win 9).blk t).view.emb (ix2 p q))
  rw [out_emb t p q]
  refine (hpay (iblk0 V c 0 t) (iblk0 V c 1 t) (iblk0 V c 2 t) (iblk0 V c 3 t) (iblk0 V c 4 t) (iblk0 V c 5 t)
      (iblk0 V c 6 t) (iblk0 V c 7 t) (iblk0 V c 8 t) p q).trans ?_
  rw [wa_whole V c t, wb_whole V c t, wc_whole V c t, b1_whole V c t, w2_whole V c t, b2_whole V c t]
  simp only [src_at V c t, dst_at V c t, edge_at V c t]
  rfl

/-- An index of the message array is in tile `t`'s block iff each coordinate is in the block's range. -/
theorem mem_blk (t : Fin cfg0.N) (i : S800000x128.Idx) :
    i ∈ ((cfg0.win 9).blk t).view.set ↔ ∀ a : Fin 2, win0_9.index t a * S8000x128.size a ≤ (i a).val
      ∧ (i a).val < win0_9.index t a * S8000x128.size a + S8000x128.size a := by
  show i ∈ ((View.whole main_v23).slice (win0_9.rect t)).set ↔ _
  rw [View.set_slice_whole, Rect.mem_set_unit]
  exact Iff.rfl

/-- Every row of the message array is in some tile: row `r` in tile `r / 8000`. -/
theorem cover (i : S800000x128.Idx) :
    ∃ t : Fin cfg0.N, (cfg0.win 9).flush t = true ∧ i ∈ ((cfg0.win 9).blk t).view.set := by
  have hi0 : (i 0).val < 800000 := (i 0).isLt
  have hi1 : (i 1).val < 128 := (i 1).isLt
  obtain ⟨t, ht⟩ : ∃ t : Fin cfg0.N, t.val = (i 0).val / 8000 :=
    ⟨⟨(i 0).val / 8000, by rw [show cfg0.N = 100 from N_0]; omega⟩, rfl⟩
  obtain ⟨-, -, -, -, -, -, -, -, -, -, -, -, -, -, -, -, e0, e1⟩ := idx_facts t
  refine ⟨t, flush0_9 t, ?_⟩
  rw [mem_blk]
  intro a
  match a with
  | ⟨0, _⟩ =>
    show win0_9.index t (0 : Fin 2) * 8000 ≤ (i 0).val ∧ (i 0).val < win0_9.index t (0 : Fin 2) * 8000 + 8000
    rw [e0, ht]; omega
  | ⟨1, _⟩ =>
    show win0_9.index t (1 : Fin 2) * 128 ≤ (i 1).val ∧ (i 1).val < win0_9.index t (1 : Fin 2) * 128 + 128
    rw [e1]; omega

/-- THE MESSAGE ARRAY after the kernel: the message function of the arrays the kernel found at entry. -/
theorem final (hpay : PayloadSpec) (c : Dev nD) : (dat0 V c).arrAt 9 cfg0.N = result V c :=
  (dat0 V c).arrAt_eq_of_cover 9 (result V c) (fun t _ => flushed_eq V hpay c t) (cover)

end Cert.KernelIdeal.MsgRegion

end
-- ==== Proof.UpdRegion.lean ====
import proofs.«135271_j51101520887961_2_alg».proof.Proof.Gen.KernelIdeal.Frame
import proofs.«135271_j51101520887961_2_alg».proof.Proof.LayerSpec
import Idealize.ShloMosaic.Lib.Pipeline.Value
import Idealize.ShloMosaic.Lib.ValueIdx

/-!
# The update kernel's output array

The update kernel runs over 25 tiles of 2000 nodes. At tile `t` it reads rows `2000·t … 2000·t + 1999` of the node
features and of the aggregated messages, and the whole of the two weight blocks, the second weight matrix, the two
bias rows and the normalisation's scale and shift rows; it writes rows `2000·t … 2000·t + 1999` of the result. If
the body's value at row `p` of a tile is the update-and-normalise function of row `p` of its two row inputs
(`hpay`), then every tile is the matching row range of ONE array function `updArr`, and since the 25 tiles cover
all 50000 rows the array ends holding `updArr` of the arrays the kernel found when it was entered.
-/

set_option maxRecDepth 16384

noncomputable section

namespace Cert.Layer

open Idealize.ShloMosaic Idealize.ShloMosaic.ValueIdx

/-- Every node's new row as one array: row `n` is the update-and-normalise function of row `n` of the node
    features and of the aggregated messages. -/
def updArr (nf ag : Mat 50000 128) (Ua Ub : Mat 128 128) (c1 : Row 128) (U2 : Mat 128 128) (c2 : Row 128)
    (g b : Row 128) : Mat 50000 128 :=
  fun i => updRow (fun a => nf (ix2 (i 0) a)) (fun a => ag (ix2 (i 0) a)) Ua Ub c1 U2 c2 g b (i 1)

end Cert.Layer

namespace Cert.KernelIdeal.UpdRegion

open Cert.KernelIdeal Cert.KernelIdeal.Gen Cert.Layer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The printed block indices, decided over the 25 tiles: the two row inputs and the output move with the tile along
    the rows; the weights, biases, scale and shift stay at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 1) = 0
    ∧ win1_8.index t (0 : Fin 1) = 0
    ∧ win1_9.index t (0 : Fin 2) = t.val ∧ win1_9.index t (1 : Fin 2) = 0 :=
  (by decide +kernel : ∀ t : Fin grid1.N, _)

theorem tile_lt (t : Fin cfg1.N) : t.val < 25 := lt_of_lt_of_eq t.isLt N_1

/-- Row `p` of tile `t` is row `2000·t + p` of the array. -/
def rowOf (t : Fin cfg1.N) (p : Fin 2000) : Fin 50000 :=
  ⟨t.val * 2000 + p.val, by have := tile_lt t; have := p.isLt; omega⟩

/-- What the body's arithmetic is assumed to compute at row `p`, column `q` of a tile: the update-and-normalise
    function of row `p` of its two row inputs against the whole weights. -/
def PayloadSpec : Prop :=
  ∀ (x0 x1 : FVec Ideal S2000x128 .f32) (x2 x3 : FVec Ideal S128x128 .f32) (x4 : FVec Ideal S128 .f32)
    (x5 : FVec Ideal S128x128 .f32) (x6 x7 x8 : FVec Ideal S128 .f32) (p : Fin 2000) (q : Fin 128),
    k1_pay1 (F := Ideal) (k1_pay2 x0 x1 x2 x3 x4 x5 x6) (k1_pay3 x0 x1 x2 x3 x4 x5 x6) (k1_pay4 x0 x1 x2 x3 x4 x5 x6) x7 x8 (ix2 p q)
      = updRow (fun a => x0 (ix2 p a)) (fun a => x1 (ix2 p a)) x2 x3 x4 x5 x6 x7 x8 q

/-! ## The tiles' reads -/

/-- Tile `t` of the node features, at row `p`: row `2000·t + p` of the array. -/
theorem node_at (c : Dev nD) (t : Fin cfg1.N) (p : Fin 2000) (a : Fin 128) :
    iblk1 V c 0 t (ix2 p a) = V c main_arg0 (ix2 (rowOf t p) a) := by
  obtain ⟨e0, e1, -⟩ := idx_facts t
  show V c main_arg0 (((cfg1.win 0).blk t).view.emb (ix2 p a)) = _
  refine congrArg (V c main_arg0) (funext fun d => Fin.ext ?_)
  match d with
  | ⟨0, _⟩ => show win1_0.index t (0 : Fin 2) * 2000 + 1 * p.val = t.val * 2000 + p.val; rw [e0]; omega
  | ⟨1, _⟩ => show win1_0.index t (1 : Fin 2) * 128 + 1 * a.val = a.val; rw [e1]; omega

/-- Tile `t` of the aggregated messages, at row `p`. -/
theorem agg_at (c : Dev nD) (t : Fin cfg1.N) (p : Fin 2000) (a : Fin 128) :
    iblk1 V c 1 t (ix2 p a) = V c main_v26 (ix2 (rowOf t p) a) := by
  obtain ⟨-, -, e0, e1, -⟩ := idx_facts t
  show V c main_v26 (((cfg1.win 1).blk t).view.emb (ix2 p a)) = _
  refine congrArg (V c main_v26) (funext fun d => Fin.ext ?_)
  match d with
  | ⟨0, _⟩ => show win1_1.index t (0 : Fin 2) * 2000 + 1 * p.val = t.val * 2000 + p.val; rw [e0]; omega
  | ⟨1, _⟩ => show win1_1.index t (1 : Fin 2) * 128 + 1 * a.val = a.val; rw [e1]; omega

/-- The first weight block is read whole at every tile. -/
theorem ua_whole (c : Dev nD) (t : Fin cfg1.N) : iblk1 V c 2 t = V c main_v27 := by
  obtain ⟨-, -, -, -, e0, e1, -⟩ := idx_facts t
  funext y
  show V c main_v27 (((cfg1.win 2).blk t).view.emb y) = V c main_v27 y
  refine congrArg (V c main_v27) (funext fun d => Fin.ext ?_)
  match d with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The second weight block is read whole at every tile. -/
theorem ub_whole (c : Dev nD) (t : Fin cfg1.N) : iblk1 V c 3 t = V c main_v28 := by
  obtain ⟨-, -, -, -, -, -, e0, e1, -⟩ := idx_facts t
  funext y
  show V c main_v28 (((cfg1.win 3).blk t).view.emb y) = V c main_v28 y
  refine congrArg (V c main_v28) (funext fun d => Fin.ext ?_)
  match d with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The first bias row is read whole at every tile. -/
theorem c1_whole (c : Dev nD) (t : Fin cfg1.N) : iblk1 V c 4 t = V c main_arg7 := by
  obtain ⟨-, -, -, -, -, -, -, -, e0, -⟩ := idx_facts t
  funext y
  show V c main_arg7 (((cfg1.win 4).blk t).view.emb y) = V c main_arg7 y
  refine congrArg (V c main_arg7) (funext fun d => Fin.ext ?_)
  match d with
  | ⟨0, _⟩ => show win1_4.index t (0 : Fin 1) * 128 + 1 * (y 0).val = (y 0).val; rw [e0]; omega

/-- The second weight matrix is read whole at every tile. -/
theorem u2_whole (c : Dev nD) (t : Fin cfg1.N) : iblk1 V c 5 t = V c main_arg8 := by
  obtain ⟨-, -, -, -, -, -, -, -, -, e0, e1, -⟩ := idx_facts t
  funext y
  show V c main_arg8 (((cfg1.win 5).blk t).view.emb y) = V c main_arg8 y
  refine congrArg (V c main_arg8) (funext fun d => Fin.ext ?_)
  match d with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

/-- The second bias row is read whole at every tile. -/
theorem c2_whole (c : Dev nD) (t : Fin cfg1.N) : iblk1 V c 6 t = V c main_arg9 := by
  obtain ⟨-, -, -, -, -, -, -, -, -, -, -, e0, -⟩ := idx_facts t
  funext y
  show V c main_arg9 (((cfg1.win 6).blk t).view.emb y) = V c main_arg9 y
  refine congrArg (V c main_arg9) (funext fun d => Fin.ext ?_)
  match d with
  | ⟨0, _⟩ => show win1_6.index t (0 : Fin 1) * 128 + 1 * (y 0).val = (y 0).val; rw [e0]; omega

/-- The normalisation's scale row is read whole at every tile. -/
theorem g_whole (c : Dev nD) (t : Fin cfg1.N) : iblk1 V c 7 t = V c main_arg10 := by
  obtain ⟨-, -, -, -, -, -, -, -, -, -, -, -, e0, -⟩ := idx_facts t
  funext y
  show V c main_arg10 (((cfg1.win 7).blk t).view.emb y) = V c main_arg10 y
  refine congrArg (V c main_arg10) (funext fun d => Fin.ext ?_)
  match d with
  | ⟨0, _⟩ => show win1_7.index t (0 : Fin 1) * 128 + 1 * (y 0).val = (y 0).val; rw [e0]; omega

/-- The normalisation's shift row is read whole at every tile. -/
theorem b_whole (c : Dev nD) (t : Fin cfg1.N) : iblk1 V c 8 t = V c main_arg11 := by
  obtain ⟨-, -, -, -, -, -, -, -, -, -, -, -, -, e0, -⟩ := idx_facts t
  funext y
  show V c main_arg11 (((cfg1.win 8).blk t).view.emb y) = V c main_arg11 y
  refine congrArg (V c main_arg11) (funext fun d => Fin.ext ?_)
  match d with
  | ⟨0, _⟩ => show win1_8.index t (0 : Fin 1) * 128 + 1 * (y 0).val = (y 0).val; rw [e0]; omega

/-- Entry `(p, q)` of the output tile `t` sits at `(2000·t + p, q)` of the result array. -/
theorem out_emb (t : Fin cfg1.N) (p : Fin 2000) (q : Fin 128) :
    ((cfg1.win 9).blk t).view.emb (ix2 p q) = ix2 (rowOf t p) q := by
  obtain ⟨-, -, -, -, -, -, -, -, -, -, -, -, -, -, e0, e1⟩ := idx_facts t
  refine funext fun d => Fin.ext ?_
  match d with
  | ⟨0, _⟩ => show win1_9.index t (0 : Fin 2) * 2000 + 1 * p.val = t.val * 2000 + p.val; rw [e0]; omega
  | ⟨1, _⟩ => show win1_9.index t (1 : Fin 2) * 128 + 1 * q.val = q.val; rw [e1]; omega

/-! ## What a tile writes back, and the array -/

/-- The array the kernel is claimed to leave: the update-and-normalise function of the arrays it found at entry. -/
abbrev result (c : Dev nD) : Mat 50000 128 :=
  updArr (V c main_arg0) (V c main_v26) (V c main_v27) (V c main_v28) (V c main_arg7) (V c main_arg8) (V c main_arg9)
    (V c main_arg10) (V c main_arg11)

/-- WHAT TILE `t` WRITES BACK is rows `2000·t …` of `result`. -/
theorem flushed_eq (hpay : PayloadSpec) (c : Dev nD) (t : Fin cfg1.N) :
    (dat1 V c).flushed 9 t = ((cfg1.win 9).blk t).view.read (Elt Ideal) (result V c) := by
  show (cfg1.win 9).cut (grid1.coords t) ((dat1 V c).after 9 t) = _
  rw [after1_9]
  unfold out1_9
  rw [View.canon_unit_zero hz]
  simp only [View.ld_unit_zero (S := S2000x128) hz, View.ld_unit_zero (S := S128x128) hz, View.ld_unit_zero (S := S128) hz1]
  funext j
  obtain ⟨p, q, rfl⟩ : ∃ (p : Fin 2000) (q : Fin 128), j = ix2 p q := ⟨j 0, j 1, eq_ix2 j⟩
  show k1_pay1 (F := Ideal)
      (k1_pay2 (iblk1 V c 0 t) (iblk1 V c 1 t) (iblk1 V c 2 t) (iblk1 V c 3 t) (iblk1 V c 4 t) (iblk1 V c 5 t) (iblk1 V c 6 t))
      (k1_pay3 (iblk1 V c 0 t) (iblk1 V c 1 t) (iblk1 V c 2 t) (iblk1 V c 3 t) (iblk1 V c 4 t) (iblk1 V c 5 t) (iblk1 V c 6 t))
      (k1_pay4 (iblk1 V c 0 t) (iblk1 V c 1 t) (iblk1 V c 2 t) (iblk1 V c 3 t) (iblk1 V c 4 t) (iblk1 V c 5 t) (iblk1 V c 6 t))
      (iblk1 V c 7 t) (iblk1 V c 8 t) (ix2 p q) = result V c (((cfg1.win 9).blk t).view.emb (ix2 p q))
  rw [out_emb t p q]
  refine (hpay (iblk1 V c 0 t) (iblk1 V c 1 t) (iblk1 V c 2 t) (iblk1 V c 3 t) (iblk1 V c 4 t) (iblk1 V c 5 t)
      (iblk1 V c 6 t) (iblk1 V c 7 t) (iblk1 V c 8 t) p q).trans ?_
  rw [ua_whole V c t, ub_whole V c t, c1_whole V c t, u2_whole V c t, c2_whole V c t, g_whole V c t, b_whole V c t]
  simp only [node_at V c t, agg_at V c t]
  rfl

/-- An index of the result array is in tile `t`'s block iff each coordinate is in the block's range. -/
theorem mem_blk (t : Fin cfg1.N) (i : S50000x128.Idx) :
    i ∈ ((cfg1.win 9).blk t).view.set ↔ ∀ a : Fin 2, win1_9.index t a * S2000x128.size a ≤ (i a).val
      ∧ (i a).val < win1_9.index t a * S2000x128.size a + S2000x128.size a := by
  show i ∈ ((View.whole main_v29).slice (win1_9.rect t)).set ↔ _
  rw [View.set_slice_whole, Rect.mem_set_unit]
  exact Iff.rfl

/-- Every row of the result array is in some tile: row `r` in tile `r / 2000`. -/
theorem cover (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, by rw [show cfg1.N = 25 from N_1]; omega⟩, rfl⟩
  obtain ⟨-, -, -, -, -, -, -, -, -, -, -, -, -, -, e0, e1⟩ := idx_facts t
  refine ⟨t, flush1_9 t, ?_⟩
  rw [mem_blk]
  intro a
  match a with
  | ⟨0, _⟩ =>
    show win1_9.index t (0 : Fin 2) * 2000 ≤ (i 0).val ∧ (i 0).val < win1_9.index t (0 : Fin 2) * 2000 + 2000
    rw [e0, ht]; omega
  | ⟨1, _⟩ =>
    show win1_9.index t (1 : Fin 2) * 128 ≤ (i 1).val ∧ (i 1).val < win1_9.index t (1 : Fin 2) * 128 + 128
    rw [e1]; omega

/-- THE RESULT ARRAY after the kernel: the update-and-normalise function of the arrays the kernel found at entry. -/
theorem final (hpay : PayloadSpec) (c : Dev nD) : (dat1 V c).arrAt 9 cfg1.N = result V c :=
  (dat1 V c).arrAt_eq_of_cover 9 (result V c) (fun t _ => flushed_eq V hpay c t) (cover)

end Cert.KernelIdeal.UpdRegion

end
-- ==== Proof.LibColumnCast.lean ====
/-
  A column vector and its flat form. A sum along the lanes that keeps its axis has shape `[a, 1]`; the flat form of the
  same numbers has shape `[a]`. The two casts between them move no element: entry `(i, 0)` of the column is entry `i`
  of the flat vector, because both sit at row-major position `i`.
-/
import Idealize.ShloMosaic.Lib.Pipeline.Value
import Idealize.ShloMosaic.Lib.ValueIdx

noncomputable section

namespace Cert.Lib.ColumnCast

open Idealize.ShloMosaic Idealize.ShloMosaic.ValueIdx

variable {α : Type}

/-- A flat `[a]` vector cast to the column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the flat `[a]` vector reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Lib.ColumnCast

end
-- ==== Proof.MsgPayload.lean ====
import proofs.«135271_j51101520887961_2_alg».proof.Proof.Gen.KernelIdeal.Skeleton
import proofs.«135271_j51101520887961_2_alg».proof.Proof.LayerSpec
import proofs.«135271_j51101520887961_2_alg».proof.Proof.LibColumnCast
import Idealize.ShloMosaic.Lib.ValueIdx
import Idealize.ShloMosaic.Lib.ValueLayout
import Idealize.ShloMosaic.Lib.Pipeline.Value
import Idealize.ShloMosaic.PureOps.Ideal.Laws

/-!
# The message network's block arithmetic read at one entry

The message kernel computes, from a block of 8000 edges, the block of their messages: three matrix products (source
rows, destination rows and edge rows, each against its own block of the first weight matrix) summed, a bias row added
to every row, the activation `x · σ(x)`, a fourth matrix product against the second weight matrix, and a second bias
row. On the extended reals every format change is the identity, so entry `(p, q)` of the result depends on row `p` of
the three inputs only, and is component `q` of the message of that row as the layer's specification writes it.
-/

noncomputable section

namespace Cert.KernelIdeal.MsgPayload
open Cert.KernelIdeal Cert.KernelIdeal.Gen Cert.Layer Idealize.ShloMosaic Idealize.ShloMosaic.ValueIdx

/-! ## A matrix product into the zero block, at an entry -/

/-- On the row axis the left factor of the 128-term product is read at the result's row. -/
theorem mm128_lhs_row (i : S8000x128.Idx) (c : dot_S8000x128_S128x128_S8000x128_1_0_0_1_n_n.contr.Idx) :
    (dot_S8000x128_S128x128_S8000x128_1_0_0_1_n_n.lhsIdx i c 0).val = (i 0).val := by
  unfold DotDims.lhsIdx
  rw [dif_neg (show ¬(0 : Fin S8000x128.rank) ∈ dot_S8000x128_S128x128_S8000x128_1_0_0_1_n_n.lhsBatch by decide),
    dif_pos (show (0 : Fin S8000x128.rank) ∈ dot_S8000x128_S128x128_S8000x128_1_0_0_1_n_n.lhsNonContracting by decide)]
  rfl

theorem mm128_rhs_col (i : S8000x128.Idx) (c : dot_S8000x128_S128x128_S8000x128_1_0_0_1_n_n.contr.Idx) :
    (dot_S8000x128_S128x128_S8000x128_1_0_0_1_n_n.rhsIdx i c 1).val = (i 1).val := by
  unfold DotDims.rhsIdx
  rw [dif_neg (show ¬(1 : Fin S128x128.rank) ∈ dot_S8000x128_S128x128_S8000x128_1_0_0_1_n_n.rhsBatch by decide),
    dif_pos (show (1 : Fin S128x128.rank) ∈ dot_S8000x128_S128x128_S8000x128_1_0_0_1_n_n.rhsNonContracting by decide)]
  rfl

/-- Entry `(p, q)` of the product accumulated into the zero block is the sum over the 128 contracted coordinates of
    the row entry of the left factor times the column entry of the right factor. -/
theorem mm128_apply (A : FVec Ideal S8000x128 .bf16) (B : FVec Ideal S128x128 .bf16) (p : Fin 8000) (q : Fin 128) :
    matmul (F := Ideal) dot_S8000x128_S128x128_S8000x128_1_0_0_1_n_n none A B (constant (F := Ideal) S8000x128 .f32 0x00000000#32) (ix2 p q)
      = ∑ k : Fin 128, A (ix2 p k) * B (ix2 k q) := by
  show FloatOps.matmul dot_S8000x128_S128x128_S8000x128_1_0_0_1_n_n none A B (constant (F := Ideal) S8000x128 .f32 0x00000000#32) (ix2 p q) = _
  rw [Ideal.matmul_constant_zero_apply,
    ← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 p q) ((contrEquiv1 dot_S8000x128_S128x128_S8000x128_1_0_0_1_n_n 128 rfl rfl).symm k) = ix2 p k :=
    funext fun a => Fin.ext (by
      match a with
      | ⟨0, _⟩ => exact mm128_lhs_row _ _
      | ⟨1, _⟩ => exact (dot_S8000x128_S128x128_S8000x128_1_0_0_1_n_n.lhsIdx_val_of_single rfl _ _).trans hk)
  have er : dot_S8000x128_S128x128_S8000x128_1_0_0_1_n_n.rhsIdx (ix2 p q) ((contrEquiv1 dot_S8000x128_S128x128_S8000x128_1_0_0_1_n_n 128 rfl rfl).symm k) = ix2 k q :=
    funext fun a => Fin.ext (by
      match a with
      | ⟨0, _⟩ => exact (dot_S8000x128_S128x128_S8000x128_1_0_0_1_n_n.rhsIdx_val_of_single rfl _ _).trans hk
      | ⟨1, _⟩ => exact mm128_rhs_col _ _)
  rw [el, er]

/-- On the row axis the left factor of the 4-term product is read at the result's row. -/
theorem mm4_lhs_row (i : S8000x128.Idx) (c : dot_S8000x4_S4x128_S8000x128_1_0_0_1_n_n.contr.Idx) :
    (dot_S8000x4_S4x128_S8000x128_1_0_0_1_n_n.lhsIdx i c 0).val = (i 0).val := by
  unfold DotDims.lhsIdx
  rw [dif_neg (show ¬(0 : Fin S8000x4.rank) ∈ dot_S8000x4_S4x128_S8000x128_1_0_0_1_n_n.lhsBatch by decide),
    dif_pos (show (0 : Fin S8000x4.rank) ∈ dot_S8000x4_S4x128_S8000x128_1_0_0_1_n_n.lhsNonContracting by decide)]
  rfl

theorem mm4_rhs_col (i : S8000x128.Idx) (c : dot_S8000x4_S4x128_S8000x128_1_0_0_1_n_n.contr.Idx) :
    (dot_S8000x4_S4x128_S8000x128_1_0_0_1_n_n.rhsIdx i c 1).val = (i 1).val := by
  unfold DotDims.rhsIdx
  rw [dif_neg (show ¬(1 : Fin S4x128.rank) ∈ dot_S8000x4_S4x128_S8000x128_1_0_0_1_n_n.rhsBatch by decide),
    dif_pos (show (1 : Fin S4x128.rank) ∈ dot_S8000x4_S4x128_S8000x128_1_0_0_1_n_n.rhsNonContracting by decide)]
  rfl

/-- Entry `(p, q)` of the product accumulated into the zero block is the sum over the 4 contracted coordinates of
    the row entry of the left factor times the column entry of the right factor. -/
theorem mm4_apply (A : FVec Ideal S8000x4 .bf16) (B : FVec Ideal S4x128 .bf16) (p : Fin 8000) (q : Fin 128) :
    matmul (F := Ideal) dot_S8000x4_S4x128_S8000x128_1_0_0_1_n_n none A B (constant (F := Ideal) S8000x128 .f32 0x00000000#32) (ix2 p q)
      = ∑ k : Fin 4, A (ix2 p k) * B (ix2 k q) := by
  show FloatOps.matmul dot_S8000x4_S4x128_S8000x128_1_0_0_1_n_n none A B (constant (F := Ideal) S8000x128 .f32 0x00000000#32) (ix2 p q) = _
  rw [Ideal.matmul_constant_zero_apply,
    ← Equiv.sum_comp (contrEquiv1 dot_S8000x4_S4x128_S8000x128_1_0_0_1_n_n 4 rfl rfl).symm]
  refine Finset.sum_congr rfl fun k _ => ?_
  have hk := contrEquiv1_symm_val dot_S8000x4_S4x128_S8000x128_1_0_0_1_n_n 4 rfl rfl k
  have el : dot_S8000x4_S4x128_S8000x128_1_0_0_1_n_n.lhsIdx (ix2 p q) ((contrEquiv1 dot_S8000x4_S4x128_S8000x128_1_0_0_1_n_n 4 rfl rfl).symm k) = ix2 p k :=
    funext fun a => Fin.ext (by
      match a with
      | ⟨0, _⟩ => exact mm4_lhs_row _ _
      | ⟨1, _⟩ => exact (dot_S8000x4_S4x128_S8000x128_1_0_0_1_n_n.lhsIdx_val_of_single rfl _ _).trans hk)
  have er : dot_S8000x4_S4x128_S8000x128_1_0_0_1_n_n.rhsIdx (ix2 p q) ((contrEquiv1 dot_S8000x4_S4x128_S8000x128_1_0_0_1_n_n 4 rfl rfl).symm k) = ix2 k q :=
    funext fun a => Fin.ext (by
      match a with
      | ⟨0, _⟩ => exact (dot_S8000x4_S4x128_S8000x128_1_0_0_1_n_n.rhsIdx_val_of_single rfl _ _).trans hk
      | ⟨1, _⟩ => exact mm4_rhs_col _ _)
  rw [el, er]

/-! ## A bias row added to every row -/

/-- A vector of 128 numbers viewed as one row and repeated over 8000 rows reads, at `(p, q)`, its entry `q`. -/
theorem bias_row_apply (v : FVec Ideal S128 .f32) (h : S128.ShapeCasts S1x128) (h' : S1x128.Broadcasts S8000x128)
    (p : Fin 8000) (q : Fin 128) :
    broadcastTo S8000x128 (shapeCast S1x128 v h) h' (ix2 p q) = v (ix1 q) :=
  (broadcastTo_1b_ab_apply (shapeCast S1x128 v h) h' p q).trans (shapeCast_a_1a_apply v h 0 q)

/-! ## The hidden layer before the activation -/

/-- The block of hidden pre-activations: the three products summed, then the first bias row. -/
def hiddenBlock (x0 x1 : FVec Ideal S8000x128 .bf16) (x2 : FVec Ideal S8000x4 .bf16) (x3 x4 : FVec Ideal S128x128 .f32)
    (x5 : FVec Ideal S4x128 .f32) (x6 : FVec Ideal S128 .f32) : FVec Ideal S8000x128 .f32 :=
  addf
    (addf
      (addf
        (matmul dot_S8000x128_S128x128_S8000x128_1_0_0_1_n_n none (shapeCast S8000x128 x0 shapeCasts_S8000x128_S8000x128)
          (truncf .bf16 (shapeCast S128x128 x3 shapeCasts_S128x128_S128x128) bitsLt_bf16_f32)
          (constant S8000x128 .f32 0x00000000#32))
        (matmul dot_S8000x128_S128x128_S8000x128_1_0_0_1_n_n none (shapeCast S8000x128 x1 shapeCasts_S8000x128_S8000x128)
          (truncf .bf16 (shapeCast S128x128 x4 shapeCasts_S128x128_S128x128) bitsLt_bf16_f32)
          (constant S8000x128 .f32 0x00000000#32)))
      (matmul dot_S8000x4_S4x128_S8000x128_1_0_0_1_n_n none (shapeCast S8000x4 x2 shapeCasts_S8000x4_S8000x4)
        (truncf .bf16 (shapeCast S4x128 x5 shapeCasts_S4x128_S4x128) bitsLt_bf16_f32)
        (constant S8000x128 .f32 0x00000000#32)))
    (broadcastTo S8000x128 (shapeCast S1x128 x6 shapeCasts_S128_S1x128) broadcasts_S1x128_S8000x128)

/-- The kernel's arithmetic is the hidden block, activated, times the second weight matrix, plus the second bias row. -/
theorem k0_pay1_eq (x0 x1 : FVec Ideal S8000x128 .bf16) (x2 : FVec Ideal S8000x4 .bf16) (x3 x4 : FVec Ideal S128x128 .f32)
    (x5 : FVec Ideal S4x128 .f32) (x6 : FVec Ideal S128 .f32) (x7 : FVec Ideal S128x128 .f32) (x8 : FVec Ideal S128 .f32) :
    k0_pay1 (F := Ideal) x0 x1 x2 x3 x4 x5 x6 x7 x8
      = addf
          (matmul dot_S8000x128_S128x128_S8000x128_1_0_0_1_n_n none
            (truncf .bf16 (mulf (hiddenBlock x0 x1 x2 x3 x4 x5 x6) (logistic (hiddenBlock x0 x1 x2 x3 x4 x5 x6))) bitsLt_bf16_f32)
            (truncf .bf16 x7 bitsLt_bf16_f32) (constant S8000x128 .f32 0x00000000#32))
          (broadcastTo S8000x128 (shapeCast S1x128 x8 shapeCasts_S128_S1x128) broadcasts_S1x128_S8000x128) := rfl

/-- Entry `(p, k)` of the hidden block is hidden unit `k` of the message network on row `p` of the three inputs. -/
theorem hiddenBlock_apply (x0 x1 : FVec Ideal S8000x128 .bf16) (x2 : FVec Ideal S8000x4 .bf16) (x3 x4 : FVec Ideal S128x128 .f32)
    (x5 : FVec Ideal S4x128 .f32) (x6 : FVec Ideal S128 .f32) (p : Fin 8000) (k : Fin 128) :
    hiddenBlock x0 x1 x2 x3 x4 x5 x6 (ix2 p k)
      = msgHidden (fun a => x0 (ix2 p a)) (fun a => x1 (ix2 p a)) (fun a => x2 (ix2 p a)) x3 x4 x5 x6 k := by
  unfold hiddenBlock msgHidden
  refine (addf_apply _ _ _).trans (congrArg₂ (· + ·) ?_ (bias_row_apply x6 _ _ p k))
  refine (addf_apply _ _ _).trans (congrArg₂ (· + ·) ?_ ?_)
  · refine (addf_apply _ _ _).trans (congrArg₂ (· + ·) ?_ ?_)
    · refine (mm128_apply _ _ p k).trans (Finset.sum_congr rfl fun a _ => ?_)
      exact congrArg₂ (· * ·) (congrFun (shapeCast_self x0 _) (ix2 p a)) (congrFun (shapeCast_self x3 _) (ix2 a k))
    · refine (mm128_apply _ _ p k).trans (Finset.sum_congr rfl fun a _ => ?_)
      exact congrArg₂ (· * ·) (congrFun (shapeCast_self x1 _) (ix2 p a)) (congrFun (shapeCast_self x4 _) (ix2 a k))
  · refine (mm4_apply _ _ p k).trans (Finset.sum_congr rfl fun a _ => ?_)
    exact congrArg₂ (· * ·) (congrFun (shapeCast_self x2 _) (ix2 p a)) (congrFun (shapeCast_self x5 _) (ix2 a k))

/-! ## The message at an entry -/

/-- Entry `(p, q)` of the kernel's block is component `q` of the message of row `p`. -/
theorem msg_payload (x0 x1 : FVec Ideal S8000x128 .bf16) (x2 : FVec Ideal S8000x4 .bf16) (x3 x4 : FVec Ideal S128x128 .f32)
    (x5 : FVec Ideal S4x128 .f32) (x6 : FVec Ideal S128 .f32) (x7 : FVec Ideal S128x128 .f32) (x8 : FVec Ideal S128 .f32)
    (p : Fin 8000) (q : Fin 128) :
    k0_pay1 (F := Ideal) x0 x1 x2 x3 x4 x5 x6 x7 x8 (ix2 p q)
      = msgRow (fun a => x0 (ix2 p a)) (fun a => x1 (ix2 p a)) (fun a => x2 (ix2 p a)) x3 x4 x5 x6 x7 x8 q := by
  rw [k0_pay1_eq]
  unfold msgRow
  refine (addf_apply _ _ _).trans (congrArg₂ (· + ·) ?_ (bias_row_apply x8 _ _ p q))
  refine (mm128_apply _ _ p q).trans (Finset.sum_congr rfl fun k _ => ?_)
  refine congrArg₂ (· * ·) ?_ rfl
  exact congrArg silu (hiddenBlock_apply x0 x1 x2 x3 x4 x5 x6 p k)

end Cert.KernelIdeal.MsgPayload

end
-- ==== Proof.UpdPayload.lean ====
import proofs.«135271_j51101520887961_2_alg».proof.Proof.Gen.KernelIdeal.Skeleton
import proofs.«135271_j51101520887961_2_alg».proof.Proof.LayerSpec
import proofs.«135271_j51101520887961_2_alg».proof.Proof.LibColumnCast
import Idealize.ShloMosaic.Lib.ValueIdx
import Idealize.ShloMosaic.Lib.ValueLayout
import Idealize.ShloMosaic.Lib.Pipeline.Value
import Idealize.ShloMosaic.PureOps.Ideal.Laws

/-!
# The update network's block arithmetic read at one entry

The update kernel computes, from a block of 2000 nodes, their new rows: two matrix products (node rows and aggregated
rows, each against its own block of the first weight matrix) summed, a bias row, the activation `x · σ(x)`, a third
matrix product against the second weight matrix, a second bias row, the node rows added back; then along each row
the mean (the lane sum divided by 128), the variance (the mean of the squared deviations), and the normalised row
`(r − μ) · (σ² + ε)^(-1/2) · γ + β`. On the extended reals every format change is the identity, so entry `(p, q)` of
the result depends on row `p` of the two row inputs only, and is component `q` of that node's new row as the layer's
specification writes it.
-/

noncomputable section

namespace Cert.KernelIdeal.UpdPayload
open Cert.KernelIdeal Cert.KernelIdeal.Gen Cert.Layer Idealize.ShloMosaic Idealize.ShloMosaic.ValueIdx

/-! ## The non-pointwise operations of the update body, each read at explicit coordinates -/

/-- The left operand's index of the 2000 x 128 by 128 x 128 product at output (p, q) and contraction coordinate k
    is (p, k). -/
private theorem lhsIdx_row (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

private theorem lhsIdx_at (p : Fin 2000) (q k : Fin 128) :
    dot_S2000x128_S128x128_S2000x128_1_0_0_1_n_n.lhsIdx (ix2 p q)
        ((ValueIdx.contrEquiv1 dot_S2000x128_S128x128_S2000x128_1_0_0_1_n_n 128 rfl rfl).symm k) = ix2 p k := by
  have hk := ValueIdx.contrEquiv1_symm_val dot_S2000x128_S128x128_S2000x128_1_0_0_1_n_n 128 rfl rfl k
  refine funext fun a => Fin.ext ?_
  match a with
  | ⟨0, _⟩ => exact lhsIdx_row _ _
  | ⟨1, _⟩ =>
    exact (dot_S2000x128_S128x128_S2000x128_1_0_0_1_n_n.lhsIdx_val_of_single rfl (ix2 p q) _).trans hk

/-- The right operand's index there is (k, q). -/
private theorem rhsIdx_col (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

private theorem rhsIdx_at (p : Fin 2000) (q k : Fin 128) :
    dot_S2000x128_S128x128_S2000x128_1_0_0_1_n_n.rhsIdx (ix2 p q)
        ((ValueIdx.contrEquiv1 dot_S2000x128_S128x128_S2000x128_1_0_0_1_n_n 128 rfl rfl).symm k) = ix2 k q := by
  have hk := ValueIdx.contrEquiv1_symm_val dot_S2000x128_S128x128_S2000x128_1_0_0_1_n_n 128 rfl rfl k
  refine funext fun a => Fin.ext ?_
  match a with
  | ⟨0, _⟩ =>
    exact (dot_S2000x128_S128x128_S2000x128_1_0_0_1_n_n.rhsIdx_val_of_single rfl (ix2 p q) _).trans hk
  | ⟨1, _⟩ => exact rhsIdx_col _ _

/-- A matrix product accumulated into zero, at (p, q): the sum over the shared axis of row p of the left operand
    times column q of the right one. -/
theorem matmul_zero_at {φ₁ φ₂ : FTy} (lhs : FVec Ideal S2000x128 φ₁) (rhs : FVec Ideal S128x128 φ₂)
    (p : Fin 2000) (q : Fin 128) :
    matmul dot_S2000x128_S128x128_S2000x128_1_0_0_1_n_n none lhs rhs (constant (F := Ideal) S2000x128 .f32 0x00000000#32) (ix2 p q)
      = ∑ k : Fin 128, lhs (ix2 p k) * rhs (ix2 k q) := by
  refine (Ideal.matmul_constant_zero_apply dot_S2000x128_S128x128_S2000x128_1_0_0_1_n_n none lhs rhs (ix2 p q)).trans ?_
  rw [← Equiv.sum_comp (ValueIdx.contrEquiv1 dot_S2000x128_S128x128_S2000x128_1_0_0_1_n_n 128 rfl rfl).symm]
  refine Finset.sum_congr rfl fun k _ => ?_
  rw [lhsIdx_at, rhsIdx_at]

/-- A length-128 row laid over 2000 rows reads, at (p, q), the row at q. -/
theorem bias_row_at {α : Type} (v : S128.Idx → α) (h1 : S128.ShapeCasts S1x128) (h2 : S1x128.Broadcasts S2000x128)
    (p : Fin 2000) (q : Fin 128) :
    broadcastTo S2000x128 (shapeCast S1x128 v h1) h2 (ix2 p q) = v (ix1 q) :=
  (broadcastTo_1b_ab_apply (shapeCast S1x128 v h1) h2 p q).trans (shapeCast_a_1a_apply v h1 (0 : Fin 1) q)

/-- The sum along a row of a 2000 x 128 block, at row p. -/
theorem lane_sum_at (src : FVec Ideal S2000x128 .f32) (h : S2000x128.Reduces [1] S2000) (hφ : FKind.Formats .f32)
    (hacc : (0x00000000#32 : BitVec 32) = 0x00000000#32) (p : Fin 2000) :
    multiReduction (F := Ideal) .add [1] S2000 src 0x00000000#32 h hφ hacc (ix1 p) = ∑ k : Fin 128, src (ix2 p k) := by
  refine (Ideal.multiReduction_add_single src 0x00000000#32 h hφ hacc (ix1 p)).trans ?_
  refine Finset.sum_congr rfl fun k _ => congrArg src ?_
  refine funext fun a => Fin.ext ?_
  match a with
  | ⟨0, _⟩ => rfl
  | ⟨1, _⟩ => rfl

/-- A column of shape [a, 1] laid over b lanes reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A format change that the ideal values ignore, after a cast to the same shape, reads the operand itself. -/
theorem truncf_cast_self_apply {s : Shape} {φ ψ : FTy} (x : FVec Ideal s φ) (h : s.ShapeCasts s)
    (hlt : ψ.bits < φ.bits) (i : s.Idx) : (truncf ψ (shapeCast s x h) hlt : FVec Ideal s ψ) i = x i :=
  congrFun (shapeCast_self x h) i

/-- The activation of the update network: a vector times its logistic, read at an index where the vector is known. -/
theorem silu_at {s : Shape} (h : FVec Ideal s .f32) (hlt : FTy.bits .bf16 < FTy.bits .f32) (i : s.Idx) (y : EReal)
    (hy : h i = y) : (truncf .bf16 (mulf h (logistic h)) hlt : FVec Ideal s .bf16) i = silu y := by
  subst hy; rfl

/-- The reciprocal square root of a vector plus a splat scalar, read at an index where the vector is known. -/
theorem rsqrt_add_splat_at {s : Shape} (v : FVec Ideal s .f32) (c : Ideal .f32) (i : s.Idx) (y : EReal)
    (hy : v i = y) : rsqrt (addf v (broadcast s c)) i = Ideal.rsqrt (y + c) := by
  subst hy; rfl

/-- A vector divided by a splat scalar, read at an index where the vector is known. -/
theorem div_splat_at {s : Shape} (v : FVec Ideal s .f32) (c : Ideal .f32) (i : s.Idx) (y : EReal)
    (hy : v i = y) : divf v (broadcast s c) i = Ideal.div y c := by
  subst hy; rfl

/-! ## The update body read at an index -/

section
variable (x0 x1 : FVec Ideal S2000x128 .f32) (x2 x3 : FVec Ideal S128x128 .f32) (x4 : FVec Ideal S128 .f32)
  (x5 : FVec Ideal S128x128 .f32) (x6 : FVec Ideal S128 .f32)

/-- The residual row: entry (p, j) of the block is the node row p plus the update network's output at j. -/
theorem pay2_at (p : Fin 2000) (j : Fin 128) :
    k1_pay2 (F := Ideal) x0 x1 x2 x3 x4 x5 x6 (ix2 p j)
      = updRes (fun a => x0 (ix2 p a)) (fun a => x1 (ix2 p a)) x2 x3 x4 x5 x6 j := by
  unfold k1_pay2 updRes
  refine (addf_apply _ _ _).trans (congrArg₂ (fun a b : EReal => a + b) rfl ?_)
  refine (addf_apply _ _ _).trans (congrArg₂ (fun a b : EReal => a + b) ?_ (bias_row_at x6 _ _ p j))
  refine (matmul_zero_at _ _ p j).trans (Finset.sum_congr rfl fun k _ => ?_)
  refine congrArg₂ (fun a b : EReal => a * b) (silu_at _ _ _ _ ?_) rfl
  unfold updHidden
  refine (addf_apply _ _ _).trans (congrArg₂ (fun a b : EReal => a + b) ?_ (bias_row_at x4 _ _ p k))
  refine (addf_apply _ _ _).trans (congrArg₂ (fun a b : EReal => a + b) ?_ ?_)
  · refine (matmul_zero_at _ _ p k).trans (Finset.sum_congr rfl fun a _ => ?_)
    exact congrArg₂ (fun a b : EReal => a * b) rfl (truncf_cast_self_apply x2 _ _ (ix2 a k))
  · refine (matmul_zero_at _ _ p k).trans (Finset.sum_congr rfl fun a _ => ?_)
    exact congrArg₂ (fun a b : EReal => a * b) (truncf_cast_self_apply x1 _ _ (ix2 p a))
      (truncf_cast_self_apply x3 _ _ (ix2 a k))

/-- The mean of the residual row p: the column's entry at (p, u), whatever the unit coordinate u. -/
theorem pay3_at (p : Fin 2000) (u : Fin 1) :
    k1_pay3 (F := Ideal) x0 x1 x2 x3 x4 x5 x6 (ix2 p u)
      = rowMean (updRes (fun a => x0 (ix2 p a)) (fun a => x1 (ix2 p a)) x2 x3 x4 x5 x6) := by
  unfold k1_pay3 rowMean
  refine div_splat_at _ _ _ _ ?_
  refine (Cert.Lib.ColumnCast.shapeCast_a_a1_apply _ _ p u).trans ?_
  refine (lane_sum_at _ _ _ _ p).trans ?_
  exact Finset.sum_congr rfl fun k _ => pay2_at x0 x1 x2 x3 x4 x5 x6 p k

/-- The deviation of entry (p, k) of the residual block from its row's mean. -/
theorem dev_at (h : S2000x1.Broadcasts S2000x128) (p : Fin 2000) (k : Fin 128) :
    subf (k1_pay2 (F := Ideal) x0 x1 x2 x3 x4 x5 x6)
        (broadcastTo S2000x128 (k1_pay3 (F := Ideal) x0 x1 x2 x3 x4 x5 x6) h) (ix2 p k)
      = updRes (fun a => x0 (ix2 p a)) (fun a => x1 (ix2 p a)) x2 x3 x4 x5 x6 k
        - rowMean (updRes (fun a => x0 (ix2 p a)) (fun a => x1 (ix2 p a)) x2 x3 x4 x5 x6) := by
  refine (subf_apply _ _ _).trans (congrArg₂ (fun a b : EReal => a - b) (pay2_at x0 x1 x2 x3 x4 x5 x6 p k) ?_)
  exact (broadcastTo_a1_ab_apply _ h p k).trans (pay3_at x0 x1 x2 x3 x4 x5 x6 p (0 : Fin 1))

/-- The variance of the residual row p: the column's entry at (p, u). -/
theorem pay4_at (p : Fin 2000) (u : Fin 1) :
    k1_pay4 (F := Ideal) x0 x1 x2 x3 x4 x5 x6 (ix2 p u)
      = rowVar (updRes (fun a => x0 (ix2 p a)) (fun a => x1 (ix2 p a)) x2 x3 x4 x5 x6) := by
  unfold k1_pay4 rowVar
  refine div_splat_at _ _ _ _ ?_
  refine (Cert.Lib.ColumnCast.shapeCast_a_a1_apply _ _ p u).trans ?_
  refine (lane_sum_at _ _ _ _ p).trans (Finset.sum_congr rfl fun k _ => ?_)
  exact (mulf_apply _ _ _).trans (congrArg₂ (fun a b : EReal => a * b)
    (dev_at x0 x1 x2 x3 x4 x5 x6 _ p k) (dev_at x0 x1 x2 x3 x4 x5 x6 _ p k))

end

/-- The update kernel's stored block at (p, q) is the layer's new row of node p at q: the residual row normalised
    along the lanes, scaled and shifted. -/
theorem upd_payload (x0 x1 : FVec Ideal S2000x128 .f32) (x2 x3 : FVec Ideal S128x128 .f32) (x4 : FVec Ideal S128 .f32)
    (x5 : FVec Ideal S128x128 .f32) (x6 x7 x8 : FVec Ideal S128 .f32) (p : Fin 2000) (q : Fin 128) :
    k1_pay1 (F := Ideal) (k1_pay2 x0 x1 x2 x3 x4 x5 x6) (k1_pay3 x0 x1 x2 x3 x4 x5 x6) (k1_pay4 x0 x1 x2 x3 x4 x5 x6) x7 x8 (ix2 p q)
      = updRow (fun a => x0 (ix2 p a)) (fun a => x1 (ix2 p a)) x2 x3 x4 x5 x6 x7 x8 q := by
  unfold k1_pay1 updRow lnRow
  refine (addf_apply _ _ _).trans (congrArg₂ (fun a b : EReal => a + b) ?_ (bias_row_at x8 _ _ p q))
  refine (mulf_apply _ _ _).trans (congrArg₂ (fun a b : EReal => a * b) ?_ (bias_row_at x7 _ _ p q))
  refine (mulf_apply _ _ _).trans (congrArg₂ (fun a b : EReal => a * b) (dev_at x0 x1 x2 x3 x4 x5 x6 _ p q) ?_)
  refine (broadcastTo_a1_ab_apply _ _ p q).trans ?_
  exact rsqrt_add_splat_at _ _ _ _ (pay4_at x0 x1 x2 x3 x4 x5 x6 p (0 : Fin 1))

end Cert.KernelIdeal.UpdPayload

end
-- ==== Proof.KernelValue.lean ====
import proofs.«135271_j51101520887961_2_alg».proof.Proof.KernelRun
import proofs.«135271_j51101520887961_2_alg».proof.Proof.HostReads
import proofs.«135271_j51101520887961_2_alg».proof.Proof.MsgRegion
import proofs.«135271_j51101520887961_2_alg».proof.Proof.UpdRegion
import proofs.«135271_j51101520887961_2_alg».proof.Proof.MsgPayload
import proofs.«135271_j51101520887961_2_alg».proof.Proof.UpdPayload

/-!
# The kernel program's result as one function of its arguments

Reading the run's last boundary back: the result array is the update kernel's array function of what that kernel
found at entry — the node features, the messages summed onto destination nodes, the two row blocks of the first
update weight matrix and the remaining update and normalisation parameters —, where the summed messages are the
scatter of the message kernel's array function of what THAT kernel found at entry — the node rows gathered at each
edge's source and destination, the edge features, the three row blocks of the first message weight matrix and the
remaining message parameters. `layer` is that composition; `final` says the run ends with it in the result array.
-/

set_option maxRecDepth 16384

noncomputable section

namespace Cert.KernelIdeal.Value

open Cert.KernelIdeal Cert.KernelIdeal.Gen Cert.KernelIdeal.HostReads Cert.Layer
open Idealize.ShloMosaic Idealize.ShloMosaic.TcCoe Idealize.SL.Sem

/-- The layer as the kernel program computes it, as one function of the thirteen argument arrays. -/
def layer (x0 : (⟨S50000x128, .f32⟩ : BufTy).Contents (Elt Ideal)) (x1 : (⟨S800000x4, .f32⟩ : BufTy).Contents (Elt Ideal))
    (x2 : (⟨S260x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S256x128, .f32⟩ : BufTy).Contents (Elt Ideal)) (x7 : (⟨S128, .f32⟩ : BufTy).Contents (Elt Ideal))
    (x8 : (⟨S128x128, .f32⟩ : BufTy).Contents (Elt Ideal)) (x9 x10 x11 : (⟨S128, .f32⟩ : BufTy).Contents (Elt Ideal))
    (x12 : (⟨S2x800000, .i32⟩ : BufTy).Contents (Elt Ideal)) : Mat 50000 128 :=
  updArr x0
    (scatterRows (F := Ideal) (dstIdx x12)
      (msgArr (gatherRows (F := Ideal) x0 (srcIdx x12)) (gatherRows (F := Ideal) x0 (dstIdx x12))
        (truncf (F := Ideal) .bf16 x1 bitsLt_bf16_f32)
        (extractStridedSlice S128x128 ![0, 0] x2 slices_S260x128_S128x128_0_0)
        (extractStridedSlice S128x128 ![128, 0] x2 slices_S260x128_S128x128_128_0)
        (extractStridedSlice S4x128 ![256, 0] x2 slices_S260x128_S4x128_256_0) x3 x4 x5))
    (extractStridedSlice S128x128 ![0, 0] x6 slices_S256x128_S128x128_0_0)
    (extractStridedSlice S128x128 ![128, 0] x6 slices_S256x128_S128x128_128_0) x7 x8 x9 x10 x11

variable (m : (ℓ : Loc nD τ sig) → Buf (Elt Ideal) ℓ) (ρ : Dev nD → PrngReg)

/-- The message array after the first kernel: the message function of the gathered rows, the edge features and the
    message parameters. -/
theorem messages (c : Dev nD) : W2 m ρ c (Proc.devRef .tc main_v23)
    = msgArr (gatherRows (F := Ideal) (m ((c : Thread nD τ).loc main_arg0)) (srcIdx (m ((c : Thread nD τ).loc main_arg12)))) (gatherRows (F := Ideal) (m ((c : Thread nD τ).loc main_arg0)) (dstIdx (m ((c : Thread nD τ).loc main_arg12))))
        (truncf (F := Ideal) .bf16 (m ((c : Thread nD τ).loc main_arg1)) bitsLt_bf16_f32)
        (extractStridedSlice S128x128 ![0, 0] (m ((c : Thread nD τ).loc main_arg2)) slices_S260x128_S128x128_0_0)
        (extractStridedSlice S128x128 ![128, 0] (m ((c : Thread nD τ).loc main_arg2)) slices_S260x128_S128x128_128_0)
        (extractStridedSlice S4x128 ![256, 0] (m ((c : Thread nD τ).loc main_arg2)) slices_S260x128_S4x128_256_0)
        (m ((c : Thread nD τ).loc main_arg3)) (m ((c : Thread nD τ).loc main_arg4)) (m ((c : Thread nD τ).loc main_arg5)) := by
  refine (W2_arr m ρ c 9).trans ?_
  refine (MsgRegion.final (V1 m ρ) MsgPayload.msg_payload c).trans ?_
  show msgArr (V1 m ρ c main_v11) (V1 m ρ c main_v18) (V1 m ρ c main_v19) (V1 m ρ c main_v20) (V1 m ρ c main_v21)
      (V1 m ρ c main_v22) (V1 m ρ c main_arg3) (V1 m ρ c main_arg4) (V1 m ρ c main_arg5) = _
  rw [V1_src m ρ c, V1_dst m ρ c, V1_edge m ρ c, V1_wa m ρ c, V1_wb m ρ c, V1_wc m ρ c, V1_arg3 m ρ c, V1_arg4 m ρ c,
    V1_arg5 m ρ c]

/-- THE RESULT ARRAY at the end of the run is `layer` of the arguments' launch contents. -/
theorem final (c : Dev nD) : W4 m ρ c (Proc.devRef .tc main_v29)
    = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W4_arr m ρ c 9).trans ?_
  refine (UpdRegion.final (V3 m ρ) UpdPayload.upd_payload c).trans ?_
  show updArr (V3 m ρ c main_arg0) (V3 m ρ c main_v26) (V3 m ρ c main_v27) (V3 m ρ c main_v28) (V3 m ρ c main_arg7)
      (V3 m ρ c main_arg8) (V3 m ρ c main_arg9) (V3 m ρ c main_arg10) (V3 m ρ c main_arg11) = _
  rw [V3_arg0 m ρ c, V3_agg m ρ c, V3_ua m ρ c, V3_ub m ρ c, V3_arg7 m ρ c, V3_arg8 m ρ c, V3_arg9 m ρ c, V3_arg10 m ρ c,
    V3_arg11 m ρ c, messages m ρ c]
  rfl

/-- The kernel program's run, with the result array named as `layer` of the arguments. -/
theorem run : θ_run defs (onTc (τ := τ) (main (F := Ideal))) ⟨m, fun _ => 0, ρ⟩ (fun r => ∀ c : Dev nD,
      r.2.mem ((c.tc : Thread nD τ).loc main_v29)
        = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (final m ρ c), (h c).2⟩) (ValueRun.run (F := Ideal) m ρ)

end Cert.KernelIdeal.Value

end
-- ==== Proof.RefMessage.lean ====
import proofs.«135271_j51101520887961_2_alg».proof.Proof.RefReadP
import proofs.«135271_j51101520887961_2_alg».proof.Proof.LayerSpec
import Idealize.ShloMosaic.Lib.ValueIdx
import Idealize.ShloMosaic.Lib.Pipeline.Value
import Idealize.ShloMosaic.PureOps.Ideal.Laws

/-!
# The reference's message network read at an index

The reference lays an edge's source row, destination row and edge row end to end (a join of three pieces of widths
128, 128 and 4 along the feature axis), multiplies the joined row by the first weight matrix, adds the first bias,
applies `x · σ(x)` (spelled negate, exponential, `1 + ·`, `1 / ·`, multiply), multiplies by the second weight matrix
and adds the second bias. Read at an edge `e` and an output feature `j`, this is the JOINED form of the message.
-/

noncomputable section

namespace Cert.ReferenceIdeal.RefMessage

open Cert.ReferenceIdeal Cert.ReferenceIdeal.ReadP Cert.Layer Idealize.ShloMosaic Idealize.ShloMosaic.ValueIdx

/-! ## The joined row, piece by piece -/

/-- Columns 0 … 127 of the joined row are the gathered source row. -/
theorem cat_src (x0 : (⟨S50000x128, .f32⟩ : BufTy).Contents (Elt Ideal)) (x1 : (⟨S800000x4, .f32⟩ : BufTy).Contents (Elt Ideal))
    (x12 : (⟨S2x800000, .i32⟩ : BufTy).Contents (Elt Ideal))
    (e : Fin 800000) (a : Fin 128) :
    val_main_v18 (F := Ideal) x0 x1 x12 (ix2 e (⟨a.val, by omega⟩ : Fin 260)) = val_main_v10 (F := Ideal) x0 x12 (ix2 e a) := by
  unfold val_main_v18
  refine concatenate_apply_piece (t := S800000x260) 1 _ _ _ 0 ?_ S800000x128 _ ?_ ?_ 0 ?_ (ix2 e a) ?_ ?_
  · exact (by decide : (0 : Nat) < 3)
  · rfl
  · rfl
  · rfl
  · intro b hb
    match b with
    | ⟨0, _⟩ => rfl
    | ⟨1, _⟩ => exact absurd (Fin.ext rfl) hb
  · show 0 + a.val = a.val
    omega

/-- Columns 128 … 255 of the joined row are the gathered destination row. -/
theorem cat_dst (x0 : (⟨S50000x128, .f32⟩ : BufTy).Contents (Elt Ideal)) (x1 : (⟨S800000x4, .f32⟩ : BufTy).Contents (Elt Ideal))
    (x12 : (⟨S2x800000, .i32⟩ : BufTy).Contents (Elt Ideal))
    (e : Fin 800000) (a : Fin 128) :
    val_main_v18 (F := Ideal) x0 x1 x12 (ix2 e (⟨128 + a.val, by omega⟩ : Fin 260)) = val_main_v17 (F := Ideal) x0 x12 (ix2 e a) := by
  unfold val_main_v18
  refine concatenate_apply_piece (t := S800000x260) 1 _ _ _ 1 ?_ S800000x128 _ ?_ ?_ 128 ?_ (ix2 e a) ?_ ?_
  · exact (by decide : (1 : Nat) < 3)
  · rfl
  · rfl
  · rfl
  · intro b hb
    match b with
    | ⟨0, _⟩ => rfl
    | ⟨1, _⟩ => exact absurd (Fin.ext rfl) hb
  · rfl

/-- Columns 256 … 259 of the joined row are the edge row. -/
theorem cat_edge (x0 : (⟨S50000x128, .f32⟩ : BufTy).Contents (Elt Ideal)) (x1 : (⟨S800000x4, .f32⟩ : BufTy).Contents (Elt Ideal))
    (x12 : (⟨S2x800000, .i32⟩ : BufTy).Contents (Elt Ideal))
    (e : Fin 800000) (a : Fin 4) :
    val_main_v18 (F := Ideal) x0 x1 x12 (ix2 e (⟨256 + a.val, by omega⟩ : Fin 260)) = x1 (ix2 e a) := by
  unfold val_main_v18
  refine concatenate_apply_piece (t := S800000x260) 1 _ _ _ 2 ?_ S800000x4 _ ?_ ?_ 256 ?_ (ix2 e a) ?_ ?_
  · exact (by decide : (2 : Nat) < 3)
  · rfl
  · rfl
  · rfl
  · intro b hb
    match b with
    | ⟨0, _⟩ => rfl
    | ⟨1, _⟩ => exact absurd (Fin.ext rfl) hb
  · rfl

/-! ## The hidden layer and the activation -/

/-- The f32 word `0x3F800000` is the extended real one. -/
private theorem one_f32 : Ideal.ofBits .f32 0x3F800000#32 = 1 := by
  simp [Ideal.ofBits, Ideal.ieee, -EReal.coe_mul]; norm_num

/-- Hidden unit `k` of edge `e` before the activation: the joined row against column `k` of the first weight
    matrix, plus the first bias. -/
private theorem hidden_read (x0 : (⟨S50000x128, .f32⟩ : BufTy).Contents (Elt Ideal)) (x1 : (⟨S800000x4, .f32⟩ : BufTy).Contents (Elt Ideal))
    (x2 : (⟨S260x128, .f32⟩ : BufTy).Contents (Elt Ideal)) (x3 : (⟨S128, .f32⟩ : BufTy).Contents (Elt Ideal))
    (x12 : (⟨S2x800000, .i32⟩ : BufTy).Contents (Elt Ideal))
    (e : Fin 800000) (k : Fin 128) :
    val_main_v22 (F := Ideal) x0 x1 x2 x3 x12 (ix2 e k)
      = (∑ a : Fin 260, val_main_v18 (F := Ideal) x0 x1 x12 (ix2 e a) * x2 (ix2 a k)) + x3 (ix1 k) := by
  rw [val_main_v22_apply, val_main_v19_apply, val_main_v21_apply, val_main_v20_apply, Ideal.addf_def]
  refine congrArg₂ (· + ·) (Finset.sum_congr rfl fun a _ => ?_) ?_
  · have el : lidx_main_v19 (ix2 e k) a = ix2 e a :=
      funext fun d => Fin.ext (by match d with | ⟨0, _⟩ => rfl | ⟨1, _⟩ => rfl)
    have er : ridx_main_v19 (ix2 e k) a = ix2 a k :=
      funext fun d => Fin.ext (by match d with | ⟨0, _⟩ => rfl | ⟨1, _⟩ => rfl)
    rw [el, er]
  · exact congrArg x3 (funext fun d => Fin.ext (by match d with | ⟨0, _⟩ => rfl))

/-- The reference's activation, spelled negate, exponential, `1 + ·`, `1 / ·`, multiply, is `x · σ(x)`. -/
private theorem silu_read (x0 : (⟨S50000x128, .f32⟩ : BufTy).Contents (Elt Ideal)) (x1 : (⟨S800000x4, .f32⟩ : BufTy).Contents (Elt Ideal))
    (x2 : (⟨S260x128, .f32⟩ : BufTy).Contents (Elt Ideal)) (x3 : (⟨S128, .f32⟩ : BufTy).Contents (Elt Ideal))
    (x12 : (⟨S2x800000, .i32⟩ : BufTy).Contents (Elt Ideal))
    (i : S800000x128.Idx) :
    val_main_v23 (F := Ideal) x0 x1 x2 x3 x12 i = silu (val_main_v22 (F := Ideal) x0 x1 x2 x3 x12 i) := by
  rw [val_main_v23_apply, val_main_call0_v5_apply, val_main_call0_v4_apply, val_main_call0_cst_0_apply,
    val_main_call0_v3_apply, val_main_call0_v2_apply, val_main_call0_cst_apply, val_main_call0_v1_apply,
    val_main_call0_v0_apply]
  unfold silu Ideal.logistic
  rw [Ideal.mulf_def, Ideal.hostDivf_def, Ideal.addf_def, Ideal.hostUnary_exp_def, Ideal.hostNegf_def, Ideal.negf_def,
    Ideal.ofBits_def, one_f32]

/-! ## The message -/

/-- The reference's message of edge `e`, component `j`, is the JOINED form of the message network on the joined row. -/
theorem ref_msg (x0 : (⟨S50000x128, .f32⟩ : BufTy).Contents (Elt Ideal)) (x1 : (⟨S800000x4, .f32⟩ : BufTy).Contents (Elt Ideal))
    (x2 : (⟨S260x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x12 : (⟨S2x800000, .i32⟩ : BufTy).Contents (Elt Ideal))
    (e : Fin 800000) (j : Fin 128) :
    val_main_v27 (F := Ideal) x0 x1 x2 x3 x4 x5 x12 (ix2 e j)
      = msgRowCat (fun a => val_main_v18 (F := Ideal) x0 x1 x12 (ix2 e a)) x2 x3 x4 x5 j := by
  unfold msgRowCat
  rw [val_main_v27_apply, val_main_v24_apply, val_main_v26_apply, val_main_v25_apply, Ideal.addf_def]
  refine congrArg₂ (· + ·) (Finset.sum_congr rfl fun k _ => ?_) ?_
  · have el : lidx_main_v24 (ix2 e j) k = ix2 e k :=
      funext fun d => Fin.ext (by match d with | ⟨0, _⟩ => rfl | ⟨1, _⟩ => rfl)
    have er : ridx_main_v24 (ix2 e j) k = ix2 k j :=
      funext fun d => Fin.ext (by match d with | ⟨0, _⟩ => rfl | ⟨1, _⟩ => rfl)
    rw [el, er, silu_read, hidden_read]
  · exact congrArg x5 (funext fun d => Fin.ext (by match d with | ⟨0, _⟩ => rfl))

end Cert.ReferenceIdeal.RefMessage

end
-- ==== Proof.RefUpdate.lean ====
import proofs.«135271_j51101520887961_2_alg».proof.Proof.RefReadP
import proofs.«135271_j51101520887961_2_alg».proof.Proof.LayerSpec
import Idealize.ShloMosaic.Lib.ValueIdx
import Idealize.ShloMosaic.Lib.Pipeline.Value
import Idealize.ShloMosaic.PureOps.Ideal.Laws

/-!
# The reference's update network and layer normalisation, read at an index

The reference program joins each node's feature row and its aggregated message row end to end, sends the joined
row of length 256 through a two-layer perceptron with the activation `x · σ(x)`, adds the result back to the node
row, and normalises the sum along the row. This module reads the value of every stage of that computation at one
index of the result and identifies it with the row-by-row specification: the joined row on its two stretches
(`cat_node`, `cat_agg`), and the result `(r − mean r) · (var r + ε)^(-1/2) · γ + β` of the residual row `r`
(`ref_upd`). The aggregated rows themselves stay an opaque array throughout.
-/

noncomputable section

namespace Cert.ReferenceIdeal.RefUpdate

open Cert.ReferenceIdeal Cert.ReferenceIdeal.ReadP Cert.Layer Idealize.ShloMosaic Idealize.ShloMosaic.ValueIdx

/-! ## The joined row on its two stretches -/

/-- On its first 128 columns the joined array is the node features. -/
theorem cat_node (x0 : (⟨S50000x128, .f32⟩ : BufTy).Contents (Elt Ideal)) (x1 : (⟨S800000x4, .f32⟩ : BufTy).Contents (Elt Ideal)) (x2 : (⟨S260x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal))
    (x12 : (⟨S2x800000, .i32⟩ : BufTy).Contents (Elt Ideal)) (n : Fin 50000) (a : Fin 128) :
    val_main_v31 (F := Ideal) x0 x1 x2 x3 x4 x5 x12 (ix2 n (⟨a.val, by omega⟩ : Fin 256)) = x0 (ix2 n a) := by
  unfold val_main_v31
  exact concatenate_pair_apply_left (1 : Fin S50000x256.rank) x0 _
    Gen.concatenates_S50000x128_S50000x128_S50000x256_d1 (ix2 n (⟨a.val, by omega⟩ : Fin 256)) rfl (ix2 n a)
    (fun b => match b with | ⟨0, _⟩ => rfl | ⟨1, _⟩ => rfl)

/-- On its last 128 columns the joined array is the aggregated messages. -/
theorem cat_agg (x0 : (⟨S50000x128, .f32⟩ : BufTy).Contents (Elt Ideal)) (x1 : (⟨S800000x4, .f32⟩ : BufTy).Contents (Elt Ideal)) (x2 : (⟨S260x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal))
    (x12 : (⟨S2x800000, .i32⟩ : BufTy).Contents (Elt Ideal)) (n : Fin 50000) (a : Fin 128) :
    val_main_v31 (F := Ideal) x0 x1 x2 x3 x4 x5 x12 (ix2 n (⟨128 + a.val, by omega⟩ : Fin 256))
      = val_main_v30 (F := Ideal) x0 x1 x2 x3 x4 x5 x12 (ix2 n a) := by
  unfold val_main_v31
  exact concatenate_pair_apply_right (1 : Fin S50000x256.rank) x0 _
    Gen.concatenates_S50000x128_S50000x128_S50000x256_d1 (ix2 n (⟨128 + a.val, by omega⟩ : Fin 256)) rfl rfl (ix2 n a)
    (fun b => match b with | ⟨0, _⟩ => fun _ => rfl | ⟨1, _⟩ => fun h => absurd rfl h)
    (by show a.val + 128 = 128 + a.val; omega)

/-! ## Words and composed index functions -/

/-- The f32 word `0x3F800000` is the extended real one. -/
private theorem one_f32 : Ideal.ofBits .f32 0x3F800000#32 = 1 :=
  IdealRules.sign_bit.ideal_onePat .f32

/-- The left operand of the first product is read at (node, contraction index). -/
private theorem lidx32_eq (n : Fin 50000) (k : Fin 128) (a : Fin 256) : lidx_main_v32 (ix2 n k) a = ix2 n a :=
  funext fun d => Fin.ext (by match d with | ⟨0, _⟩ => rfl | ⟨1, _⟩ => rfl)

/-- The right operand of the first product is read at (contraction index, hidden unit). -/
private theorem ridx32_eq (n : Fin 50000) (k : Fin 128) (a : Fin 256) : ridx_main_v32 (ix2 n k) a = ix2 a k :=
  funext fun d => Fin.ext (by match d with | ⟨0, _⟩ => rfl | ⟨1, _⟩ => rfl)

/-- The left operand of the second product is read at (node, hidden unit). -/
private theorem lidx37_eq (n : Fin 50000) (j : Fin 128) (k : Fin 128) : lidx_main_v37 (ix2 n j) k = ix2 n k :=
  funext fun d => Fin.ext (by match d with | ⟨0, _⟩ => rfl | ⟨1, _⟩ => rfl)

/-- The right operand of the second product is read at (hidden unit, output component). -/
private theorem ridx37_eq (n : Fin 50000) (j : Fin 128) (k : Fin 128) : ridx_main_v37 (ix2 n j) k = ix2 k j :=
  funext fun d => Fin.ext (by match d with | ⟨0, _⟩ => rfl | ⟨1, _⟩ => rfl)

/-- The first bias, laid along every node's row, reads the bias vector at the column. -/
private theorem bias34 (x7 : (⟨S128, .f32⟩ : BufTy).Contents (Elt Ideal)) (n : Fin 50000) (k : Fin 128) :
    val_main_v34 (F := Ideal) x7 (ix2 n k) = x7 (ix1 k) := by
  rw [val_main_v34_apply, val_main_v33_apply]
  exact congrArg x7 (funext fun d => Fin.ext (by match d with | ⟨0, _⟩ => rfl))

/-- The second bias, laid along every node's row, reads the bias vector at the column. -/
private theorem bias39 (x9 : (⟨S128, .f32⟩ : BufTy).Contents (Elt Ideal)) (n : Fin 50000) (k : Fin 128) :
    val_main_v39 (F := Ideal) x9 (ix2 n k) = x9 (ix1 k) := by
  rw [val_main_v39_apply, val_main_v38_apply]
  exact congrArg x9 (funext fun d => Fin.ext (by match d with | ⟨0, _⟩ => rfl))

/-- The scale, laid along every node's row, reads the scale vector at the column. -/
private theorem bias61 (x10 : (⟨S128, .f32⟩ : BufTy).Contents (Elt Ideal)) (n : Fin 50000) (k : Fin 128) :
    val_main_v61 (F := Ideal) x10 (ix2 n k) = x10 (ix1 k) := by
  rw [val_main_v61_apply, val_main_v60_apply]
  exact congrArg x10 (funext fun d => Fin.ext (by match d with | ⟨0, _⟩ => rfl))

/-- The shift, laid along every node's row, reads the shift vector at the column. -/
private theorem bias64 (x11 : (⟨S128, .f32⟩ : BufTy).Contents (Elt Ideal)) (n : Fin 50000) (k : Fin 128) :
    val_main_v64 (F := Ideal) x11 (ix2 n k) = x11 (ix1 k) := by
  rw [val_main_v64_apply, val_main_v63_apply]
  exact congrArg x11 (funext fun d => Fin.ext (by match d with | ⟨0, _⟩ => rfl))

/-! ## The update network: the residual row -/

/-- Hidden unit `k` of node `n` before the activation: the joined row against column `k` of the first weight
    matrix, plus the first bias. -/
private theorem hidden_at (x0 : (⟨S50000x128, .f32⟩ : BufTy).Contents (Elt Ideal)) (x1 : (⟨S800000x4, .f32⟩ : BufTy).Contents (Elt Ideal)) (x2 : (⟨S260x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal))
    (x6 : (⟨S256x128, .f32⟩ : BufTy).Contents (Elt Ideal)) (x7 : (⟨S128, .f32⟩ : BufTy).Contents (Elt Ideal)) (x12 : (⟨S2x800000, .i32⟩ : BufTy).Contents (Elt Ideal)) (n : Fin 50000) (k : Fin 128) :
    val_main_v35 (F := Ideal) x0 x1 x2 x3 x4 x5 x6 x7 x12 (ix2 n k) = ((∑ a : Fin 256, val_main_v31 (F := Ideal) x0 x1 x2 x3 x4 x5 x12 (ix2 n a) * x6 (ix2 a k)) + x7 (ix1 k)) := by
  rw [val_main_v35_apply, val_main_v32_apply, bias34, Ideal.addf_def]
  refine congrArg (· + x7 (ix1 k)) (Finset.sum_congr rfl fun a _ => ?_)
  rw [lidx32_eq, ridx32_eq]

/-- The activation, spelled `h · (1 / (1 + e^(-h)))` by the program, is `h · σ(h)`. -/
private theorem act_at (x0 : (⟨S50000x128, .f32⟩ : BufTy).Contents (Elt Ideal)) (x1 : (⟨S800000x4, .f32⟩ : BufTy).Contents (Elt Ideal)) (x2 : (⟨S260x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal))
    (x6 : (⟨S256x128, .f32⟩ : BufTy).Contents (Elt Ideal)) (x7 : (⟨S128, .f32⟩ : BufTy).Contents (Elt Ideal)) (x12 : (⟨S2x800000, .i32⟩ : BufTy).Contents (Elt Ideal)) (n : Fin 50000) (k : Fin 128) :
    val_main_v36 (F := Ideal) x0 x1 x2 x3 x4 x5 x6 x7 x12 (ix2 n k) = silu ((∑ a : Fin 256, val_main_v31 (F := Ideal) x0 x1 x2 x3 x4 x5 x12 (ix2 n a) * x6 (ix2 a k)) + x7 (ix1 k)) := by
  rw [val_main_v36_apply, val_main_call1_v5_apply, val_main_call1_v4_apply, val_main_call1_cst_0_apply,
    val_main_call1_v3_apply, val_main_call1_v2_apply, val_main_call1_cst_apply, val_main_call1_v1_apply,
    val_main_call1_v0_apply, hidden_at]
  simp only [Ideal.mulf_def, Ideal.hostDivf_def, Ideal.ofBits_def, Ideal.addf_def, Ideal.hostUnary_exp_def,
    Ideal.hostNegf_def, Ideal.negf_def, one_f32, silu, Ideal.logistic]

/-- Component `j` of node `n`'s residual row: the node row plus the update network's output. -/
theorem res_row (x0 : (⟨S50000x128, .f32⟩ : BufTy).Contents (Elt Ideal)) (x1 : (⟨S800000x4, .f32⟩ : BufTy).Contents (Elt Ideal)) (x2 : (⟨S260x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal))
    (x6 : (⟨S256x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal))
    (x12 : (⟨S2x800000, .i32⟩ : BufTy).Contents (Elt Ideal)) (n : Fin 50000) (j : Fin 128) :
    val_main_v41 (F := Ideal) x0 x1 x2 x3 x4 x5 x6 x7 x8 x9 x12 (ix2 n j)
      = updResCat (fun a => x0 (ix2 n a)) (fun a => val_main_v31 (F := Ideal) x0 x1 x2 x3 x4 x5 x12 (ix2 n a)) x6 x7 x8 x9 j := by
  rw [val_main_v41_apply, val_main_v40_apply, val_main_v37_apply, bias39]
  unfold updResCat
  simp only [Ideal.addf_def]
  refine congrArg (fun s => x0 (ix2 n j) + (s + x9 (ix1 j))) (Finset.sum_congr rfl fun k _ => ?_)
  rw [lidx37_eq, ridx37_eq, act_at]

/-! ## The normalisation along the row -/

/-- The row mean the program computes for node `n` (a row sum from the zero word, divided by the word of 128)
    is the mean of the residual row. -/
private theorem mean_at (x0 : (⟨S50000x128, .f32⟩ : BufTy).Contents (Elt Ideal)) (x1 : (⟨S800000x4, .f32⟩ : BufTy).Contents (Elt Ideal)) (x2 : (⟨S260x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal))
    (x6 : (⟨S256x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal))
    (x12 : (⟨S2x800000, .i32⟩ : BufTy).Contents (Elt Ideal)) (n : Fin 50000) (z : Fin 1) :
    val_main_v45 (F := Ideal) x0 x1 x2 x3 x4 x5 x6 x7 x8 x9 x12 (ix2 n z) = rowMean (fun k => val_main_v41 (F := Ideal) x0 x1 x2 x3 x4 x5 x6 x7 x8 x9 x12 (ix2 n k)) := by
  rw [val_main_v45_apply, val_main_v43_apply, val_main_v42_apply, val_main_cst_3_apply, val_main_v44_apply,
    val_main_cst_4_apply]
  simp only [Ideal.hostDivf_def, Ideal.ofBits_def, Ideal.ofBits_zero_f32, zero_add]
  unfold rowMean
  refine congrArg (fun s => Ideal.div s w128) (Finset.sum_congr rfl fun k _ => ?_)
  exact congrArg _ (funext fun d => Fin.ext (by match d with | ⟨0, _⟩ => rfl | ⟨1, _⟩ => rfl))

/-- The row variance the program computes for node `n` is the variance of the residual row. -/
private theorem var_at (x0 : (⟨S50000x128, .f32⟩ : BufTy).Contents (Elt Ideal)) (x1 : (⟨S800000x4, .f32⟩ : BufTy).Contents (Elt Ideal)) (x2 : (⟨S260x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal))
    (x6 : (⟨S256x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal))
    (x12 : (⟨S2x800000, .i32⟩ : BufTy).Contents (Elt Ideal)) (n : Fin 50000) (z : Fin 1) :
    val_main_v52 (F := Ideal) x0 x1 x2 x3 x4 x5 x6 x7 x8 x9 x12 (ix2 n z) = rowVar (fun k => val_main_v41 (F := Ideal) x0 x1 x2 x3 x4 x5 x6 x7 x8 x9 x12 (ix2 n k)) := by
  rw [val_main_v52_apply, val_main_v50_apply, val_main_v49_apply, val_main_cst_5_apply, val_main_v51_apply,
    val_main_cst_6_apply]
  simp only [Ideal.hostDivf_def, Ideal.ofBits_def, Ideal.ofBits_zero_f32, zero_add]
  unfold rowVar
  refine congrArg (fun s => Ideal.div s w128) (Finset.sum_congr rfl fun k _ => ?_)
  have e : idx_main_v49 (idx_main_v50 (ix2 n z)) k = ix2 n k :=
    funext fun d => Fin.ext (by match d with | ⟨0, _⟩ => rfl | ⟨1, _⟩ => rfl)
  have e46 : idx_main_v46 (ix2 n k) = ix2 n (⟨0, Nat.one_pos⟩ : Fin 1) :=
    funext fun d => Fin.ext (by match d with | ⟨0, _⟩ => rfl | ⟨1, _⟩ => rfl)
  rw [e, val_main_v48_apply, val_main_v47_apply, val_main_v46_apply, e46, mean_at]
  simp only [Ideal.mulf_def, Ideal.subf_def]

/-- Component `j` of node `n`'s result: the residual row normalised along the row, scaled and shifted. -/
private theorem ln_at (x0 : (⟨S50000x128, .f32⟩ : BufTy).Contents (Elt Ideal)) (x1 : (⟨S800000x4, .f32⟩ : BufTy).Contents (Elt Ideal)) (x2 : (⟨S260x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal))
    (x6 : (⟨S256x128, .f32⟩ : BufTy).Contents (Elt Ideal)) (x7 : (⟨S128, .f32⟩ : BufTy).Contents (Elt Ideal)) (x8 : (⟨S128x128, .f32⟩ : BufTy).Contents (Elt Ideal)) (x9 x10 x11 : (⟨S128, .f32⟩ : BufTy).Contents (Elt Ideal))
    (x12 : (⟨S2x800000, .i32⟩ : BufTy).Contents (Elt Ideal)) (n : Fin 50000) (j : Fin 128) :
    val_main_v65 (F := Ideal) x0 x1 x2 x3 x4 x5 x6 x7 x8 x9 x10 x11 x12 (ix2 n j) = lnRow (fun k => val_main_v41 (F := Ideal) x0 x1 x2 x3 x4 x5 x6 x7 x8 x9 x12 (ix2 n k)) x10 x11 j := by
  rw [val_main_v65_apply, val_main_v62_apply, val_main_v59_apply, val_main_v54_apply, val_main_v53_apply,
    val_main_v58_apply, val_main_v57_apply, val_main_v56_apply, val_main_v55_apply, val_main_cst_7_apply, bias61, bias64]
  have e53 : idx_main_v53 (ix2 n j) = ix2 n (⟨0, Nat.one_pos⟩ : Fin 1) :=
    funext fun d => Fin.ext (by match d with | ⟨0, _⟩ => rfl | ⟨1, _⟩ => rfl)
  have e58 : idx_main_v58 (ix2 n j) = ix2 n (⟨0, Nat.one_pos⟩ : Fin 1) :=
    funext fun d => Fin.ext (by match d with | ⟨0, _⟩ => rfl | ⟨1, _⟩ => rfl)
  rw [e53, e58, mean_at, var_at]
  unfold lnRow
  simp only [Ideal.mulf_def, Ideal.subf_def, Ideal.addf_def, Ideal.hostUnary_rsqrt_def, Ideal.ofBits_def]

/-- The reference's result at (node `n`, component `j`) is the JOINED form of the node's new row. -/
theorem ref_upd (x0 : (⟨S50000x128, .f32⟩ : BufTy).Contents (Elt Ideal)) (x1 : (⟨S800000x4, .f32⟩ : BufTy).Contents (Elt Ideal)) (x2 : (⟨S260x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal))
    (x6 : (⟨S256x128, .f32⟩ : BufTy).Contents (Elt Ideal)) (x7 : (⟨S128, .f32⟩ : BufTy).Contents (Elt Ideal)) (x8 : (⟨S128x128, .f32⟩ : BufTy).Contents (Elt Ideal)) (x9 x10 x11 : (⟨S128, .f32⟩ : BufTy).Contents (Elt Ideal))
    (x12 : (⟨S2x800000, .i32⟩ : BufTy).Contents (Elt Ideal)) (n : Fin 50000) (j : Fin 128) :
    val_main_v65 (F := Ideal) x0 x1 x2 x3 x4 x5 x6 x7 x8 x9 x10 x11 x12 (ix2 n j)
      = updRowCat (fun a => x0 (ix2 n a)) (fun a => val_main_v31 (F := Ideal) x0 x1 x2 x3 x4 x5 x12 (ix2 n a))
          x6 x7 x8 x9 x10 x11 j := by
  unfold updRowCat
  exact (ln_at x0 x1 x2 x3 x4 x5 x6 x7 x8 x9 x10 x11 x12 n j).trans
    (congrArg (fun r => lnRow r x10 x11 j) (funext fun k => res_row x0 x1 x2 x3 x4 x5 x6 x7 x8 x9 x12 n k))

end Cert.ReferenceIdeal.RefUpdate

end
-- ==== Proof.Bridge.lean ====
import proofs.«135271_j51101520887961_2_alg».proof.Proof.KernelValue
import proofs.«135271_j51101520887961_2_alg».proof.Proof.RefMessage
import proofs.«135271_j51101520887961_2_alg».proof.Proof.RefUpdate

/-!
# The two programs compute one function

The kernel program's `layer` and the reference's last stage, as functions of the thirteen argument arrays, agree:

* the gathered rows agree as arrays — both programs wrap negative indices the same way and gather the same node rows
  (the kernel from a copy in a narrower float format, which is the same array of extended reals);
* each edge's message agrees: the reference multiplies the three rows laid end to end with the whole first weight
  matrix, the kernel multiplies each row with its own block of it, and a sum over 260 = 128 + 128 + 4 indices is the
  sum of its three stretches;
* the scatter-add is one operation applied to equal arrays;
* each node's new row agrees, by the same splitting of a sum over 256 = 128 + 128 indices.
-/

set_option maxRecDepth 16384

noncomputable section

namespace Cert.Bridge

open Cert.Layer Idealize.ShloMosaic Idealize.ShloMosaic.ValueIdx
open Cert.KernelIdeal.HostReads Cert.ReferenceIdeal.ReadP

/-! ## Row blocks of a weight matrix, read at an index -/

theorem w1a_at (x2 : (⟨Cert.ReferenceIdeal.S260x128, .f32⟩ : BufTy).Contents (Elt Ideal)) (a k : Fin 128) :
    extractStridedSlice Cert.KernelIdeal.S128x128 ![0, 0] x2 Cert.KernelIdeal.Facts₀.slices_S260x128_S128x128_0_0 (ix2 a k)
      = x2 (ix2 (⟨a.val, by omega⟩ : Fin 260) k) :=
  extractStridedSlice_apply ![0, 0] x2 _ (ix2 a k) (ix2 (⟨a.val, by omega⟩ : Fin 260) k) (fun d => match d with
    | ⟨0, _⟩ => by show a.val = 0 + a.val; omega
    | ⟨1, _⟩ => by show k.val = 0 + k.val; omega)

theorem w1b_at (x2 : (⟨Cert.ReferenceIdeal.S260x128, .f32⟩ : BufTy).Contents (Elt Ideal)) (a k : Fin 128) :
    extractStridedSlice Cert.KernelIdeal.S128x128 ![128, 0] x2 Cert.KernelIdeal.Facts₀.slices_S260x128_S128x128_128_0 (ix2 a k)
      = x2 (ix2 (⟨128 + a.val, by omega⟩ : Fin 260) k) :=
  extractStridedSlice_apply ![128, 0] x2 _ (ix2 a k) (ix2 (⟨128 + a.val, by omega⟩ : Fin 260) k) (fun d => match d with
    | ⟨0, _⟩ => by show 128 + a.val = 128 + a.val; rfl
    | ⟨1, _⟩ => by show k.val = 0 + k.val; omega)

theorem w1c_at (x2 : (⟨Cert.ReferenceIdeal.S260x128, .f32⟩ : BufTy).Contents (Elt Ideal)) (a : Fin 4) (k : Fin 128) :
    extractStridedSlice Cert.KernelIdeal.S4x128 ![256, 0] x2 Cert.KernelIdeal.Facts₀.slices_S260x128_S4x128_256_0 (ix2 a k)
      = x2 (ix2 (⟨256 + a.val, by omega⟩ : Fin 260) k) :=
  extractStridedSlice_apply ![256, 0] x2 _ (ix2 a k) (ix2 (⟨256 + a.val, by omega⟩ : Fin 260) k) (fun d => match d with
    | ⟨0, _⟩ => by show 256 + a.val = 256 + a.val; rfl
    | ⟨1, _⟩ => by show k.val = 0 + k.val; omega)

theorem u1a_at (x6 : (⟨Cert.ReferenceIdeal.S256x128, .f32⟩ : BufTy).Contents (Elt Ideal)) (a k : Fin 128) :
    extractStridedSlice Cert.KernelIdeal.S128x128 ![0, 0] x6 Cert.KernelIdeal.Facts₀.slices_S256x128_S128x128_0_0 (ix2 a k)
      = x6 (ix2 (⟨a.val, by omega⟩ : Fin 256) k) :=
  extractStridedSlice_apply ![0, 0] x6 _ (ix2 a k) (ix2 (⟨a.val, by omega⟩ : Fin 256) k) (fun d => match d with
    | ⟨0, _⟩ => by show a.val = 0 + a.val; omega
    | ⟨1, _⟩ => by show k.val = 0 + k.val; omega)

theorem u1b_at (x6 : (⟨Cert.ReferenceIdeal.S256x128, .f32⟩ : BufTy).Contents (Elt Ideal)) (a k : Fin 128) :
    extractStridedSlice Cert.KernelIdeal.S128x128 ![128, 0] x6 Cert.KernelIdeal.Facts₀.slices_S256x128_S128x128_128_0 (ix2 a k)
      = x6 (ix2 (⟨128 + a.val, by omega⟩ : Fin 256) k) :=
  extractStridedSlice_apply ![128, 0] x6 _ (ix2 a k) (ix2 (⟨128 + a.val, by omega⟩ : Fin 256) k) (fun d => match d with
    | ⟨0, _⟩ => by show 128 + a.val = 128 + a.val; rfl
    | ⟨1, _⟩ => by show k.val = 0 + k.val; omega)

/-! ## The gathered rows -/

/-- The node rows gathered at the edges' source nodes: the two programs spell one array. -/
theorem src_rows (x0 : (⟨Cert.ReferenceIdeal.S50000x128, .f32⟩ : BufTy).Contents (Elt Ideal)) (x12 : (⟨Cert.ReferenceIdeal.S2x800000, .i32⟩ : BufTy).Contents (Elt Ideal)) :
    (gatherRows (F := Ideal) x0 (srcIdx x12) : Mat 800000 128) = val_main_v10 (F := Ideal) x0 x12 := rfl

/-- The node rows gathered at the edges' destination nodes: the two programs spell one array. -/
theorem dst_rows (x0 : (⟨Cert.ReferenceIdeal.S50000x128, .f32⟩ : BufTy).Contents (Elt Ideal)) (x12 : (⟨Cert.ReferenceIdeal.S2x800000, .i32⟩ : BufTy).Contents (Elt Ideal)) :
    (gatherRows (F := Ideal) x0 (dstIdx x12) : Mat 800000 128) = val_main_v17 (F := Ideal) x0 x12 := rfl

/-! ## The messages -/

/-- Every edge's message: the kernel's array function is the reference's stage. -/
theorem msg_eq (x0 : (⟨Cert.ReferenceIdeal.S50000x128, .f32⟩ : BufTy).Contents (Elt Ideal)) (x1 : (⟨Cert.ReferenceIdeal.S800000x4, .f32⟩ : BufTy).Contents (Elt Ideal)) (x2 : (⟨Cert.ReferenceIdeal.S260x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x12 : (⟨Cert.ReferenceIdeal.S2x800000, .i32⟩ : BufTy).Contents (Elt Ideal)) :
    (msgArr (gatherRows (F := Ideal) x0 (srcIdx x12)) (gatherRows (F := Ideal) x0 (dstIdx x12))
        (truncf (F := Ideal) .bf16 x1 Cert.KernelIdeal.Facts₀.bitsLt_bf16_f32)
        (extractStridedSlice Cert.KernelIdeal.S128x128 ![0, 0] x2 Cert.KernelIdeal.Facts₀.slices_S260x128_S128x128_0_0)
        (extractStridedSlice Cert.KernelIdeal.S128x128 ![128, 0] x2 Cert.KernelIdeal.Facts₀.slices_S260x128_S128x128_128_0)
        (extractStridedSlice Cert.KernelIdeal.S4x128 ![256, 0] x2 Cert.KernelIdeal.Facts₀.slices_S260x128_S4x128_256_0) x3 x4 x5)
      = val_main_v27 (F := Ideal) x0 x1 x2 x3 x4 x5 x12 := by
  funext i
  obtain ⟨e, j, rfl⟩ : ∃ (e : Fin 800000) (j : Fin 128), i = ix2 e j := ⟨i 0, i 1, eq_ix2 i⟩
  rw [Cert.ReferenceIdeal.RefMessage.ref_msg x0 x1 x2 x3 x4 x5 x12 e j]
  show msgRow (fun a => gatherRows (F := Ideal) x0 (srcIdx x12) (ix2 e a)) (fun a => gatherRows (F := Ideal) x0 (dstIdx x12) (ix2 e a))
      (fun a => truncf (F := Ideal) .bf16 x1 Cert.KernelIdeal.Facts₀.bitsLt_bf16_f32 (ix2 e a))
      (extractStridedSlice Cert.KernelIdeal.S128x128 ![0, 0] x2 Cert.KernelIdeal.Facts₀.slices_S260x128_S128x128_0_0)
      (extractStridedSlice Cert.KernelIdeal.S128x128 ![128, 0] x2 Cert.KernelIdeal.Facts₀.slices_S260x128_S128x128_128_0)
      (extractStridedSlice Cert.KernelIdeal.S4x128 ![256, 0] x2 Cert.KernelIdeal.Facts₀.slices_S260x128_S4x128_256_0) x3 x4 x5 j = _
  refine (msgRowCat_eq_msgRow _ x2 x3 x4 x5 _ _ _ _ _ _ ?_ ?_ ?_ ?_ ?_ ?_ j).symm
  · exact fun a => (Cert.ReferenceIdeal.RefMessage.cat_src x0 x1 x12 e a).trans (congrFun (src_rows x0 x12).symm (ix2 e a))
  · exact fun a => (Cert.ReferenceIdeal.RefMessage.cat_dst x0 x1 x12 e a).trans (congrFun (dst_rows x0 x12).symm (ix2 e a))
  · exact fun a => Cert.ReferenceIdeal.RefMessage.cat_edge x0 x1 x12 e a
  · exact fun a k => (w1a_at x2 a k).symm
  · exact fun a k => (w1b_at x2 a k).symm
  · exact fun a k => (w1c_at x2 a k).symm

/-! ## The aggregated messages -/

/-- Messages summed onto destination nodes: one operation on equal arrays. -/
theorem agg_eq (x0 : (⟨Cert.ReferenceIdeal.S50000x128, .f32⟩ : BufTy).Contents (Elt Ideal)) (x1 : (⟨Cert.ReferenceIdeal.S800000x4, .f32⟩ : BufTy).Contents (Elt Ideal)) (x2 : (⟨Cert.ReferenceIdeal.S260x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x12 : (⟨Cert.ReferenceIdeal.S2x800000, .i32⟩ : BufTy).Contents (Elt Ideal)) :
    (scatterRows (F := Ideal) (dstIdx x12)
      (msgArr (gatherRows (F := Ideal) x0 (srcIdx x12)) (gatherRows (F := Ideal) x0 (dstIdx x12))
        (truncf (F := Ideal) .bf16 x1 Cert.KernelIdeal.Facts₀.bitsLt_bf16_f32)
        (extractStridedSlice Cert.KernelIdeal.S128x128 ![0, 0] x2 Cert.KernelIdeal.Facts₀.slices_S260x128_S128x128_0_0)
        (extractStridedSlice Cert.KernelIdeal.S128x128 ![128, 0] x2 Cert.KernelIdeal.Facts₀.slices_S260x128_S128x128_128_0)
        (extractStridedSlice Cert.KernelIdeal.S4x128 ![256, 0] x2 Cert.KernelIdeal.Facts₀.slices_S260x128_S4x128_256_0) x3 x4 x5) : Mat 50000 128)
      = val_main_v30 (F := Ideal) x0 x1 x2 x3 x4 x5 x12 := by
  rw [msg_eq x0 x1 x2 x3 x4 x5 x12]
  rfl

/-! ## The layer -/

/-- THE BRIDGE: the kernel program's `layer` is the reference's last stage, as functions of the arguments. -/
theorem layer_eq (x0 : (⟨Cert.ReferenceIdeal.S50000x128, .f32⟩ : BufTy).Contents (Elt Ideal)) (x1 : (⟨Cert.ReferenceIdeal.S800000x4, .f32⟩ : BufTy).Contents (Elt Ideal)) (x2 : (⟨Cert.ReferenceIdeal.S260x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S256x128, .f32⟩ : BufTy).Contents (Elt Ideal)) (x7 : (⟨Cert.ReferenceIdeal.S128, .f32⟩ : BufTy).Contents (Elt Ideal)) (x8 : (⟨Cert.ReferenceIdeal.S128x128, .f32⟩ : BufTy).Contents (Elt Ideal)) (x9 : (⟨Cert.ReferenceIdeal.S128, .f32⟩ : BufTy).Contents (Elt Ideal)) (x10 : (⟨Cert.ReferenceIdeal.S128, .f32⟩ : BufTy).Contents (Elt Ideal)) (x11 : (⟨Cert.ReferenceIdeal.S128, .f32⟩ : BufTy).Contents (Elt Ideal)) (x12 : (⟨Cert.ReferenceIdeal.S2x800000, .i32⟩ : BufTy).Contents (Elt Ideal)) :
    Cert.KernelIdeal.Value.layer x0 x1 x2 x3 x4 x5 x6 x7 x8 x9 x10 x11 x12
      = val_main_v65 (F := Ideal) x0 x1 x2 x3 x4 x5 x6 x7 x8 x9 x10 x11 x12 := by
  funext i
  obtain ⟨n, j, rfl⟩ : ∃ (n : Fin 50000) (j : Fin 128), i = ix2 n j := ⟨i 0, i 1, eq_ix2 i⟩
  rw [Cert.ReferenceIdeal.RefUpdate.ref_upd x0 x1 x2 x3 x4 x5 x6 x7 x8 x9 x10 x11 x12 n j]
  show updRow (fun a => x0 (ix2 n a))
      (fun a => scatterRows (F := Ideal) (dstIdx x12)
        (msgArr (gatherRows (F := Ideal) x0 (srcIdx x12)) (gatherRows (F := Ideal) x0 (dstIdx x12))
        (truncf (F := Ideal) .bf16 x1 Cert.KernelIdeal.Facts₀.bitsLt_bf16_f32)
        (extractStridedSlice Cert.KernelIdeal.S128x128 ![0, 0] x2 Cert.KernelIdeal.Facts₀.slices_S260x128_S128x128_0_0)
        (extractStridedSlice Cert.KernelIdeal.S128x128 ![128, 0] x2 Cert.KernelIdeal.Facts₀.slices_S260x128_S128x128_128_0)
        (extractStridedSlice Cert.KernelIdeal.S4x128 ![256, 0] x2 Cert.KernelIdeal.Facts₀.slices_S260x128_S4x128_256_0) x3 x4 x5) (ix2 n a))
      (extractStridedSlice Cert.KernelIdeal.S128x128 ![0, 0] x6 Cert.KernelIdeal.Facts₀.slices_S256x128_S128x128_0_0)
      (extractStridedSlice Cert.KernelIdeal.S128x128 ![128, 0] x6 Cert.KernelIdeal.Facts₀.slices_S256x128_S128x128_128_0) x7 x8 x9 x10 x11 j = _
  refine (updRowCat_eq_updRow _ _ _ x6 x7 x8 x9 x10 x11 _ _ ?_ ?_ ?_ ?_ j).symm
  · exact fun a => Cert.ReferenceIdeal.RefUpdate.cat_node x0 x1 x2 x3 x4 x5 x12 n a
  · exact fun a => (Cert.ReferenceIdeal.RefUpdate.cat_agg x0 x1 x2 x3 x4 x5 x12 n a).trans
      (congrFun (agg_eq x0 x1 x2 x3 x4 x5 x12).symm (ix2 n a))
  · exact fun a k => (u1a_at x6 a k).symm
  · exact fun a k => (u1b_at x6 a k).symm

end Cert.Bridge

end
-- ==== Proof.RefRunW.lean ====
import proofs.«135271_j51101520887961_2_alg».proof.Proof.RefOpsP
import proofs.«135271_j51101520887961_2_alg».proof.Proof.RefReadP
import Idealize.ShloMosaic.Lib.StableHlo.Run

/-!
# The reference's run, read back in five stretches

The reference is a straight line of 92 whole-array operations. Several of its values are read more than once — the
hidden layer of each perceptron (by the activation), the row before normalisation (by the mean, the variance and the
final scaling), the mean (by the variance and the final scaling) — so the result written out as ONE term of the
arguments repeats those subterms many times over. Here the line is cut after each such value: operations 1–27 (up to the
message network's hidden layer), 28–49 (up to the update network's hidden layer), 50–63 (up to the row before
normalisation), 64–69 (its mean), 70–92 (the rest). Each stretch is read on its own from an arbitrary starting
valuation whose few relevant buffers are known, and the five readings compose to: the result buffer ends at the last
stage's function of the arguments, and no argument is written.
-/

set_option maxRecDepth 16384

noncomputable section

namespace Cert.ReferenceIdeal.RunW

open Cert.ReferenceIdeal Cert.ReferenceIdeal.Gen Cert.ReferenceIdeal.OpsP Cert.ReferenceIdeal.ReadP
open Idealize.ShloMosaic Idealize.ShloMosaic.TcCoe Idealize.SL.Sem Idealize.ShloMosaic.StableHlo

variable {F : FTy → Type} [FloatOps F]

/-- The contents after a line of operations followed by another: run the second from where the first ends. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- Operations 1–27: the edge endpoints, the gathered rows, the joined rows, the message network's hidden layer. -/
abbrev seg0 : List (HloOp τ sig (Elt F)) :=
  [ unary main_arg12 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg12 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_1 (constantI S_ 32 0#32),
    unary main_c_1 main_v11 (broadcastInDim S800000 ![] bcast_S_S800000 : (⟨S_, .i32⟩ : BufTy).Contents (Elt F) → (⟨S800000, .i32⟩ : BufTy).Contents (Elt F)),
    binary main_v3 main_v11 main_v12 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v13 (broadcastInDim S800000 ![] bcast_S_S800000 : (⟨S_, .i32⟩ : BufTy).Contents (Elt F) → (⟨S800000, .i32⟩ : BufTy).Contents (Elt F)),
    binary main_v3 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_v3 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_arg0 main_v16 main_v17 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nary ![main_v10, main_v17, main_arg1] main_v18 (fun u => concatenate S800000x260 1 [⟨S800000x128, u 0⟩, ⟨S800000x128, u 1⟩, ⟨S800000x4, u 2⟩] concatenates_S800000x128_S800000x128_S800000x4_S800000x260_d1),
    binary main_v18 main_arg2 main_v19 ((fun l r => Host.dotGeneral dot_S800000x260_S260x128_S800000x128_1_0_0_1_n_n none l r) : (⟨S800000x260, .f32⟩ : BufTy).Contents (Elt F) → (⟨S260x128, .f32⟩ : BufTy).Contents (Elt F) → (⟨S800000x128, .f32⟩ : BufTy).Contents (Elt F)),
    unary main_arg3 main_v20 (broadcastInDim S1x128 ![1] bcast_S128_S1x128_1 : (⟨S128, .f32⟩ : BufTy).Contents (Elt F) → (⟨S1x128, .f32⟩ : BufTy).Contents (Elt F)),
    unary main_v20 main_v21 (broadcastInDim S800000x128 ![0, 1] bcast_S1x128_S800000x128_0_1 : (⟨S1x128, .f32⟩ : BufTy).Contents (Elt F) → (⟨S800000x128, .f32⟩ : BufTy).Contents (Elt F)),
    binary main_v19 main_v21 main_v22 (addf : (⟨S800000x128, .f32⟩ : BufTy).Contents (Elt F) → (⟨S800000x128, .f32⟩ : BufTy).Contents (Elt F) → (⟨S800000x128, .f32⟩ : BufTy).Contents (Elt F)) ]

/-- Operations 28–49: the activation, the message, the scatter-add, the joined node rows, the update network's hidden layer. -/
abbrev seg1 : List (HloOp τ sig (Elt F)) :=
  [ TRef.unary (TRef.of (T := ⟨S800000x128, .f32⟩) main_v22) (TRef.of (T := ⟨S800000x128, .f32⟩) main_call0_v0) Host.negf,
    TRef.unary (TRef.of (T := ⟨S800000x128, .f32⟩) main_call0_v0) (TRef.of (T := ⟨S800000x128, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S800000x128, .f32⟩) main_call0_v2) (broadcastInDim S800000x128 ![] bcast_S_S800000x128),
    TRef.binary (TRef.of (T := ⟨S800000x128, .f32⟩) main_call0_v2) (TRef.of (T := ⟨S800000x128, .f32⟩) main_call0_v1) (TRef.of (T := ⟨S800000x128, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S800000x128, .f32⟩) main_call0_v4) (broadcastInDim S800000x128 ![] bcast_S_S800000x128),
    TRef.binary (TRef.of (T := ⟨S800000x128, .f32⟩) main_call0_v4) (TRef.of (T := ⟨S800000x128, .f32⟩) main_call0_v3) (TRef.of (T := ⟨S800000x128, .f32⟩) main_call0_v5) Host.divf,
    TRef.binary (TRef.of (T := ⟨S800000x128, .f32⟩) main_v22) (TRef.of (T := ⟨S800000x128, .f32⟩) main_call0_v5) (TRef.of (T := ⟨S800000x128, .f32⟩) main_v23) mulf,
    binary main_v23 main_arg4 main_v24 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg5 main_v25 (broadcastInDim S1x128 ![1] bcast_S128_S1x128_1 : (⟨S128, .f32⟩ : BufTy).Contents (Elt F) → (⟨S1x128, .f32⟩ : BufTy).Contents (Elt F)),
    unary main_v25 main_v26 (broadcastInDim S800000x128 ![0, 1] bcast_S1x128_S800000x128_0_1 : (⟨S1x128, .f32⟩ : BufTy).Contents (Elt F) → (⟨S800000x128, .f32⟩ : BufTy).Contents (Elt F)),
    binary main_v24 main_v26 main_v27 (addf : (⟨S800000x128, .f32⟩ : BufTy).Contents (Elt F) → (⟨S800000x128, .f32⟩ : BufTy).Contents (Elt F) → (⟨S800000x128, .f32⟩ : BufTy).Contents (Elt F)),
    nullary main_cst (constant S_ .f32 0x00000000#32),
    unary main_cst main_v28 (broadcastInDim S50000x128 ![] bcast_S_S50000x128 : (⟨S_, .f32⟩ : BufTy).Contents (Elt F) → (⟨S50000x128, .f32⟩ : BufTy).Contents (Elt F)),
    unary main_v3 main_v29 (broadcastInDim S800000x1 ![0] bcast_S800000_S800000x1_0 : (⟨S800000, .i32⟩ : BufTy).Contents (Elt F) → (⟨S800000x1, .i32⟩ : BufTy).Contents (Elt F)),
    ternary main_v28 main_v29 main_v27 main_v30 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_arg0 main_v30 main_v31 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v31 main_arg6 main_v32 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg7 main_v33 (broadcastInDim S1x128 ![1] bcast_S128_S1x128_1 : (⟨S128, .f32⟩ : BufTy).Contents (Elt F) → (⟨S1x128, .f32⟩ : BufTy).Contents (Elt F)),
    unary main_v33 main_v34 (broadcastInDim S50000x128 ![0, 1] bcast_S1x128_S50000x128_0_1 : (⟨S1x128, .f32⟩ : BufTy).Contents (Elt F) → (⟨S50000x128, .f32⟩ : BufTy).Contents (Elt F)),
    binary main_v32 main_v34 main_v35 (addf : (⟨S50000x128, .f32⟩ : BufTy).Contents (Elt F) → (⟨S50000x128, .f32⟩ : BufTy).Contents (Elt F) → (⟨S50000x128, .f32⟩ : BufTy).Contents (Elt F)) ]

/-- Operations 50–63: the activation, the update, the residual row. -/
abbrev seg2 : List (HloOp τ sig (Elt F)) :=
  [ TRef.unary (TRef.of (T := ⟨S50000x128, .f32⟩) main_v35) (TRef.of (T := ⟨S50000x128, .f32⟩) main_call1_v0) Host.negf,
    TRef.unary (TRef.of (T := ⟨S50000x128, .f32⟩) main_call1_v0) (TRef.of (T := ⟨S50000x128, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S50000x128, .f32⟩) main_call1_v2) (broadcastInDim S50000x128 ![] bcast_S_S50000x128),
    TRef.binary (TRef.of (T := ⟨S50000x128, .f32⟩) main_call1_v2) (TRef.of (T := ⟨S50000x128, .f32⟩) main_call1_v1) (TRef.of (T := ⟨S50000x128, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S50000x128, .f32⟩) main_call1_v4) (broadcastInDim S50000x128 ![] bcast_S_S50000x128),
    TRef.binary (TRef.of (T := ⟨S50000x128, .f32⟩) main_call1_v4) (TRef.of (T := ⟨S50000x128, .f32⟩) main_call1_v3) (TRef.of (T := ⟨S50000x128, .f32⟩) main_call1_v5) Host.divf,
    TRef.binary (TRef.of (T := ⟨S50000x128, .f32⟩) main_v35) (TRef.of (T := ⟨S50000x128, .f32⟩) main_call1_v5) (TRef.of (T := ⟨S50000x128, .f32⟩) main_v36) mulf,
    binary main_v36 main_arg8 main_v37 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg9 main_v38 (broadcastInDim S1x128 ![1] bcast_S128_S1x128_1 : (⟨S128, .f32⟩ : BufTy).Contents (Elt F) → (⟨S1x128, .f32⟩ : BufTy).Contents (Elt F)),
    unary main_v38 main_v39 (broadcastInDim S50000x128 ![0, 1] bcast_S1x128_S50000x128_0_1 : (⟨S1x128, .f32⟩ : BufTy).Contents (Elt F) → (⟨S50000x128, .f32⟩ : BufTy).Contents (Elt F)),
    binary main_v37 main_v39 main_v40 (addf : (⟨S50000x128, .f32⟩ : BufTy).Contents (Elt F) → (⟨S50000x128, .f32⟩ : BufTy).Contents (Elt F) → (⟨S50000x128, .f32⟩ : BufTy).Contents (Elt F)),
    binary main_arg0 main_v40 main_v41 (addf : (⟨S50000x128, .f32⟩ : BufTy).Contents (Elt F) → (⟨S50000x128, .f32⟩ : BufTy).Contents (Elt F) → (⟨S50000x128, .f32⟩ : BufTy).Contents (Elt F)) ]

/-- Operations 64–69: the row mean. -/
abbrev seg3 : List (HloOp τ sig (Elt F)) :=
  [ nullary main_cst_3 (constant S_ .f32 0x00000000#32),
    binary main_v41 main_cst_3 main_v42 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v42 main_v43 (broadcastInDim S50000x1 ![0] bcast_S50000_S50000x1_0 : (⟨S50000, .f32⟩ : BufTy).Contents (Elt F) → (⟨S50000x1, .f32⟩ : BufTy).Contents (Elt F)),
    nullary main_cst_4 (constant S_ .f32 0x43000000#32),
    unary main_cst_4 main_v44 (broadcastInDim S50000x1 ![] bcast_S_S50000x1 : (⟨S_, .f32⟩ : BufTy).Contents (Elt F) → (⟨S50000x1, .f32⟩ : BufTy).Contents (Elt F)),
    binary main_v43 main_v44 main_v45 (Host.divf : (⟨S50000x1, .f32⟩ : BufTy).Contents (Elt F) → (⟨S50000x1, .f32⟩ : BufTy).Contents (Elt F) → (⟨S50000x1, .f32⟩ : BufTy).Contents (Elt F)) ]

/-- Operations 70–92: the variance and the normalised, scaled and shifted row. -/
abbrev seg4 : List (HloOp τ sig (Elt F)) :=
  [ unary main_v45 main_v46 (broadcastInDim S50000x128 ![0, 1] bcast_S50000x1_S50000x128_0_1 : (⟨S50000x1, .f32⟩ : BufTy).Contents (Elt F) → (⟨S50000x128, .f32⟩ : BufTy).Contents (Elt F)),
    binary main_v41 main_v46 main_v47 (subf : (⟨S50000x128, .f32⟩ : BufTy).Contents (Elt F) → (⟨S50000x128, .f32⟩ : BufTy).Contents (Elt F) → (⟨S50000x128, .f32⟩ : BufTy).Contents (Elt F)),
    binary main_v47 main_v47 main_v48 (mulf : (⟨S50000x128, .f32⟩ : BufTy).Contents (Elt F) → (⟨S50000x128, .f32⟩ : BufTy).Contents (Elt F) → (⟨S50000x128, .f32⟩ : BufTy).Contents (Elt F)),
    nullary main_cst_5 (constant S_ .f32 0x00000000#32),
    binary main_v48 main_cst_5 main_v49 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v49 main_v50 (broadcastInDim S50000x1 ![0] bcast_S50000_S50000x1_0 : (⟨S50000, .f32⟩ : BufTy).Contents (Elt F) → (⟨S50000x1, .f32⟩ : BufTy).Contents (Elt F)),
    nullary main_cst_6 (constant S_ .f32 0x43000000#32),
    unary main_cst_6 main_v51 (broadcastInDim S50000x1 ![] bcast_S_S50000x1 : (⟨S_, .f32⟩ : BufTy).Contents (Elt F) → (⟨S50000x1, .f32⟩ : BufTy).Contents (Elt F)),
    binary main_v50 main_v51 main_v52 (Host.divf : (⟨S50000x1, .f32⟩ : BufTy).Contents (Elt F) → (⟨S50000x1, .f32⟩ : BufTy).Contents (Elt F) → (⟨S50000x1, .f32⟩ : BufTy).Contents (Elt F)),
    unary main_v45 main_v53 (broadcastInDim S50000x128 ![0, 1] bcast_S50000x1_S50000x128_0_1 : (⟨S50000x1, .f32⟩ : BufTy).Contents (Elt F) → (⟨S50000x128, .f32⟩ : BufTy).Contents (Elt F)),
    binary main_v41 main_v53 main_v54 (subf : (⟨S50000x128, .f32⟩ : BufTy).Contents (Elt F) → (⟨S50000x128, .f32⟩ : BufTy).Contents (Elt F) → (⟨S50000x128, .f32⟩ : BufTy).Contents (Elt F)),
    nullary main_cst_7 (constant S_ .f32 0x3727C5AC#32),
    unary main_cst_7 main_v55 (broadcastInDim S50000x1 ![] bcast_S_S50000x1 : (⟨S_, .f32⟩ : BufTy).Contents (Elt F) → (⟨S50000x1, .f32⟩ : BufTy).Contents (Elt F)),
    binary main_v52 main_v55 main_v56 (addf : (⟨S50000x1, .f32⟩ : BufTy).Contents (Elt F) → (⟨S50000x1, .f32⟩ : BufTy).Contents (Elt F) → (⟨S50000x1, .f32⟩ : BufTy).Contents (Elt F)),
    unary main_v56 main_v57 (Host.rsqrt : (⟨S50000x1, .f32⟩ : BufTy).Contents (Elt F) → (⟨S50000x1, .f32⟩ : BufTy).Contents (Elt F)),
    unary main_v57 main_v58 (broadcastInDim S50000x128 ![0, 1] bcast_S50000x1_S50000x128_0_1 : (⟨S50000x1, .f32⟩ : BufTy).Contents (Elt F) → (⟨S50000x128, .f32⟩ : BufTy).Contents (Elt F)),
    binary main_v54 main_v58 main_v59 (mulf : (⟨S50000x128, .f32⟩ : BufTy).Contents (Elt F) → (⟨S50000x128, .f32⟩ : BufTy).Contents (Elt F) → (⟨S50000x128, .f32⟩ : BufTy).Contents (Elt F)),
    unary main_arg10 main_v60 (broadcastInDim S1x128 ![1] bcast_S128_S1x128_1 : (⟨S128, .f32⟩ : BufTy).Contents (Elt F) → (⟨S1x128, .f32⟩ : BufTy).Contents (Elt F)),
    unary main_v60 main_v61 (broadcastInDim S50000x128 ![0, 1] bcast_S1x128_S50000x128_0_1 : (⟨S1x128, .f32⟩ : BufTy).Contents (Elt F) → (⟨S50000x128, .f32⟩ : BufTy).Contents (Elt F)),
    binary main_v59 main_v61 main_v62 (mulf : (⟨S50000x128, .f32⟩ : BufTy).Contents (Elt F) → (⟨S50000x128, .f32⟩ : BufTy).Contents (Elt F) → (⟨S50000x128, .f32⟩ : BufTy).Contents (Elt F)),
    unary main_arg11 main_v63 (broadcastInDim S1x128 ![1] bcast_S128_S1x128_1 : (⟨S128, .f32⟩ : BufTy).Contents (Elt F) → (⟨S1x128, .f32⟩ : BufTy).Contents (Elt F)),
    unary main_v63 main_v64 (broadcastInDim S50000x128 ![0, 1] bcast_S1x128_S50000x128_0_1 : (⟨S1x128, .f32⟩ : BufTy).Contents (Elt F) → (⟨S50000x128, .f32⟩ : BufTy).Contents (Elt F)),
    binary main_v62 main_v64 main_v65 (addf : (⟨S50000x128, .f32⟩ : BufTy).Contents (Elt F) → (⟨S50000x128, .f32⟩ : BufTy).Contents (Elt F) → (⟨S50000x128, .f32⟩ : BufTy).Contents (Elt F)) ]

theorem ops_split : (ops : List (HloOp τ sig (Elt F))) = seg0 ++ (seg1 ++ (seg2 ++ (seg3 ++ seg4))) := rfl

/-! ## Buffers a stretch does not write -/

theorem seg0_keep_arg0 (W : Valuation τ sig (Elt F)) : after seg0 W (Proc.devRef .tc main_arg0) = W (Proc.devRef .tc main_arg0) := by
  after_results <;> rfl

theorem seg0_keep_arg4 (W : Valuation τ sig (Elt F)) : after seg0 W (Proc.devRef .tc main_arg4) = W (Proc.devRef .tc main_arg4) := by
  after_results <;> rfl

theorem seg0_keep_arg5 (W : Valuation τ sig (Elt F)) : after seg0 W (Proc.devRef .tc main_arg5) = W (Proc.devRef .tc main_arg5) := by
  after_results <;> rfl

theorem seg0_keep_arg6 (W : Valuation τ sig (Elt F)) : after seg0 W (Proc.devRef .tc main_arg6) = W (Proc.devRef .tc main_arg6) := by
  after_results <;> rfl

theorem seg0_keep_arg7 (W : Valuation τ sig (Elt F)) : after seg0 W (Proc.devRef .tc main_arg7) = W (Proc.devRef .tc main_arg7) := by
  after_results <;> rfl

theorem seg0_keep_arg8 (W : Valuation τ sig (Elt F)) : after seg0 W (Proc.devRef .tc main_arg8) = W (Proc.devRef .tc main_arg8) := by
  after_results <;> rfl

theorem seg0_keep_arg9 (W : Valuation τ sig (Elt F)) : after seg0 W (Proc.devRef .tc main_arg9) = W (Proc.devRef .tc main_arg9) := by
  after_results <;> rfl

theorem seg0_keep_arg10 (W : Valuation τ sig (Elt F)) : after seg0 W (Proc.devRef .tc main_arg10) = W (Proc.devRef .tc main_arg10) := by
  after_results <;> rfl

theorem seg0_keep_arg11 (W : Valuation τ sig (Elt F)) : after seg0 W (Proc.devRef .tc main_arg11) = W (Proc.devRef .tc main_arg11) := by
  after_results <;> rfl

theorem seg1_keep_arg0 (W : Valuation τ sig (Elt F)) : after seg1 W (Proc.devRef .tc main_arg0) = W (Proc.devRef .tc main_arg0) := by
  after_results <;> rfl

theorem seg1_keep_arg8 (W : Valuation τ sig (Elt F)) : after seg1 W (Proc.devRef .tc main_arg8) = W (Proc.devRef .tc main_arg8) := by
  after_results <;> rfl

theorem seg1_keep_arg9 (W : Valuation τ sig (Elt F)) : after seg1 W (Proc.devRef .tc main_arg9) = W (Proc.devRef .tc main_arg9) := by
  after_results <;> rfl

theorem seg1_keep_arg10 (W : Valuation τ sig (Elt F)) : after seg1 W (Proc.devRef .tc main_arg10) = W (Proc.devRef .tc main_arg10) := by
  after_results <;> rfl

theorem seg1_keep_arg11 (W : Valuation τ sig (Elt F)) : after seg1 W (Proc.devRef .tc main_arg11) = W (Proc.devRef .tc main_arg11) := by
  after_results <;> rfl

theorem seg2_keep_arg10 (W : Valuation τ sig (Elt F)) : after seg2 W (Proc.devRef .tc main_arg10) = W (Proc.devRef .tc main_arg10) := by
  after_results <;> rfl

theorem seg2_keep_arg11 (W : Valuation τ sig (Elt F)) : after seg2 W (Proc.devRef .tc main_arg11) = W (Proc.devRef .tc main_arg11) := by
  after_results <;> rfl

theorem seg3_keep_v41 (W : Valuation τ sig (Elt F)) : after seg3 W (Proc.devRef .tc main_v41) = W (Proc.devRef .tc main_v41) := by
  after_results <;> rfl

theorem seg3_keep_arg10 (W : Valuation τ sig (Elt F)) : after seg3 W (Proc.devRef .tc main_arg10) = W (Proc.devRef .tc main_arg10) := by
  after_results <;> rfl

theorem seg3_keep_arg11 (W : Valuation τ sig (Elt F)) : after seg3 W (Proc.devRef .tc main_arg11) = W (Proc.devRef .tc main_arg11) := by
  after_results <;> rfl

/-! ## What each stretch computes -/

set_option maxHeartbeats 4000000 in
theorem seg0_v22 (W : Valuation τ sig (Elt F)) :
    after seg0 W (Proc.devRef .tc main_v22) = val_main_v22 (F := F) (W (Proc.devRef .tc main_arg0)) (W (Proc.devRef .tc main_arg1)) (W (Proc.devRef .tc main_arg2)) (W (Proc.devRef .tc main_arg3)) (W (Proc.devRef .tc main_arg12)) := by
  after_results <;> rfl

theorem seg0_v3 (W : Valuation τ sig (Elt F)) :
    after seg0 W (Proc.devRef .tc main_v3) = val_main_v3 (F := F) (W (Proc.devRef .tc main_arg12)) := by
  after_results <;> rfl

set_option maxHeartbeats 4000000 in
theorem seg1_v35 (W : Valuation τ sig (Elt F)) (x0 : (⟨S50000x128, .f32⟩ : BufTy).Contents (Elt F)) (x1 : (⟨S800000x4, .f32⟩ : BufTy).Contents (Elt F)) (x2 : (⟨S260x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S256x128, .f32⟩ : BufTy).Contents (Elt F)) (x7 : (⟨S128, .f32⟩ : BufTy).Contents (Elt F)) (x12 : (⟨S2x800000, .i32⟩ : BufTy).Contents (Elt F))
    (h22 : W (Proc.devRef .tc main_v22) = val_main_v22 (F := F) x0 x1 x2 x3 x12) (h3 : W (Proc.devRef .tc main_v3) = val_main_v3 (F := F) x12)
    (h0 : W (Proc.devRef .tc main_arg0) = x0) (h4 : W (Proc.devRef .tc main_arg4) = x4) (h5 : W (Proc.devRef .tc main_arg5) = x5)
    (h6 : W (Proc.devRef .tc main_arg6) = x6) (h7 : W (Proc.devRef .tc main_arg7) = x7) :
    after seg1 W (Proc.devRef .tc main_v35) = val_main_v35 (F := F) x0 x1 x2 x3 x4 x5 x6 x7 x12 := by
  after_results
  subst h0 h4 h5 h6 h7
  rw [h22, h3]
  rfl

set_option maxHeartbeats 4000000 in
theorem seg2_v41 (W : Valuation τ sig (Elt F)) (x0 : (⟨S50000x128, .f32⟩ : BufTy).Contents (Elt F)) (x1 : (⟨S800000x4, .f32⟩ : BufTy).Contents (Elt F)) (x2 : (⟨S260x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S256x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x12 : (⟨S2x800000, .i32⟩ : BufTy).Contents (Elt F))
    (h35 : W (Proc.devRef .tc main_v35) = val_main_v35 (F := F) x0 x1 x2 x3 x4 x5 x6 x7 x12)
    (h0 : W (Proc.devRef .tc main_arg0) = x0) (h8 : W (Proc.devRef .tc main_arg8) = x8) (h9 : W (Proc.devRef .tc main_arg9) = x9) :
    after seg2 W (Proc.devRef .tc main_v41) = val_main_v41 (F := F) x0 x1 x2 x3 x4 x5 x6 x7 x8 x9 x12 := by
  after_results
  subst h0 h8 h9
  rw [h35]
  rfl

theorem seg3_v45 (W : Valuation τ sig (Elt F)) (x0 : (⟨S50000x128, .f32⟩ : BufTy).Contents (Elt F)) (x1 : (⟨S800000x4, .f32⟩ : BufTy).Contents (Elt F)) (x2 : (⟨S260x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S256x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x12 : (⟨S2x800000, .i32⟩ : BufTy).Contents (Elt F))
    (h41 : W (Proc.devRef .tc main_v41) = val_main_v41 (F := F) x0 x1 x2 x3 x4 x5 x6 x7 x8 x9 x12) :
    after seg3 W (Proc.devRef .tc main_v45) = val_main_v45 (F := F) x0 x1 x2 x3 x4 x5 x6 x7 x8 x9 x12 := by
  after_results
  rw [h41]
  rfl

set_option maxHeartbeats 4000000 in
theorem seg4_v65 (W : Valuation τ sig (Elt F)) (x0 : (⟨S50000x128, .f32⟩ : BufTy).Contents (Elt F)) (x1 : (⟨S800000x4, .f32⟩ : BufTy).Contents (Elt F)) (x2 : (⟨S260x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S256x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (x12 : (⟨S2x800000, .i32⟩ : BufTy).Contents (Elt F))
    (h41 : W (Proc.devRef .tc main_v41) = val_main_v41 (F := F) x0 x1 x2 x3 x4 x5 x6 x7 x8 x9 x12)
    (h45 : W (Proc.devRef .tc main_v45) = val_main_v45 (F := F) x0 x1 x2 x3 x4 x5 x6 x7 x8 x9 x12)
    (h10 : W (Proc.devRef .tc main_arg10) = x10) (h11 : W (Proc.devRef .tc main_arg11) = x11) :
    after seg4 W (Proc.devRef .tc main_v65) = val_main_v65 (F := F) x0 x1 x2 x3 x4 x5 x6 x7 x8 x9 x10 x11 x12 := by
  after_results
  subst h10 h11
  rw [h41, h45]
  rfl

/-! ## The whole line -/

/-- After all 92 operations the result buffer holds the last stage's function of the arguments' contents. -/
theorem result_eq (V : Valuation τ sig (Elt F)) :
    after ops V (Proc.devRef .tc main_v65)
      = val_main_v65 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [ops_split, after_append, after_append, after_append, after_append]
  have f35 := seg1_v35 (after seg0 V) _ _ _ _ _ _ _ _ _ (seg0_v22 V) (seg0_v3 V) (seg0_keep_arg0 V) (seg0_keep_arg4 V)
    (seg0_keep_arg5 V) (seg0_keep_arg6 V) (seg0_keep_arg7 V)
  have f41 := seg2_v41 (after seg1 (after seg0 V)) _ _ _ _ _ _ _ _ _ _ _ f35
    ((seg1_keep_arg0 _).trans (seg0_keep_arg0 V)) ((seg1_keep_arg8 _).trans (seg0_keep_arg8 V))
    ((seg1_keep_arg9 _).trans (seg0_keep_arg9 V))
  have f45 := seg3_v45 (after seg2 (after seg1 (after seg0 V))) _ _ _ _ _ _ _ _ _ _ _ f41
  exact seg4_v65 (after seg3 (after seg2 (after seg1 (after seg0 V)))) _ _ _ _ _ _ _ _ _ _ _ _ _
    ((seg3_keep_v41 _).trans f41) f45
    ((seg3_keep_arg10 _).trans ((seg2_keep_arg10 _).trans ((seg1_keep_arg10 _).trans (seg0_keep_arg10 V))))
    ((seg3_keep_arg11 _).trans ((seg2_keep_arg11 _).trans ((seg1_keep_arg11 _).trans (seg0_keep_arg11 V))))

set_option maxRecDepth 8192 in
set_option maxHeartbeats 36800000 in
/-- On every device, from any memory with zero counters: every weakly fair execution of the reference terminates with
    the result at the last stage's function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65)
        = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v65).trans (result_eq _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl)⟩)
    (run_seq scopedRefs_eq scopedSems_eq defs main (fun _ => ops) main_eq (fun _ => ops_sub) m ρ)

end Cert.ReferenceIdeal.RunW

end
-- ==== Proof.lean ====
/-
  One message-passing layer of a graph network — messages from a two-layer perceptron of (source row, destination
  row, edge row), summed per destination node, then a two-layer perceptron update of (node row, summed messages),
  a residual connection and a layer normalisation — computed by two tiled kernels among whole-array gathers and a
  scatter-add, against the same layer written with whole-array operations.

  The three frames: each kernel program's frame is the generated one; the reference's is its run (read back in five
  stretches, Proof/RefRunW) with the result dropped. The idealization rewrote no operation, so `preserves` is `True`.

  `algebraic`: at the ideal instance both programs end with ONE function of the argument arrays in the result
  (`Cert.KernelIdeal.Value.layer`). For the kernel program this is read off its run, boundary by boundary
  (Proof/KernelRun, HostReads, MsgRegion, UpdRegion, MsgPayload, UpdPayload, KernelValue); for the reference it is its
  run's last stage (Proof/RefRunW), equal to `layer` index by index (Proof/RefMessage, RefUpdate, Bridge). The one law joining the two
  spellings is that a finite sum over rows laid end to end is the sum of the sums over each row (Proof/LayerSpec);
  it holds on the extended reals as on any commutative monoid, so the precondition is never opened.
-/
import proofs.«135271_j51101520887961_2_alg».proof.Defs
import proofs.«135271_j51101520887961_2_alg».proof.Proof.Gen.Kernel
import proofs.«135271_j51101520887961_2_alg».proof.Proof.Gen.Kernel.Frame
import proofs.«135271_j51101520887961_2_alg».proof.Proof.Gen.KernelIdeal
import proofs.«135271_j51101520887961_2_alg».proof.Proof.Gen.KernelIdeal.Frame
import proofs.«135271_j51101520887961_2_alg».proof.Proof.Gen.ReferenceIdeal
import proofs.«135271_j51101520887961_2_alg».proof.Proof.Gen.Pre_finite_inputs
import proofs.«135271_j51101520887961_2_alg».proof.Proof.Bridge
import proofs.«135271_j51101520887961_2_alg».proof.Proof.RefRunW
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunW.run (F := Ideal) m ρ)

theorem preserves : Cert.preserves_Kernel_KernelIdeal := trivial

/-- From memories agreeing on the arguments both programs run and end with `layer` of the arguments in the result:
    the kernel program by its run read back, the reference by its last stage being `layer`. -/
theorem algebraic : Cert.algebraic_KernelIdeal_ReferenceIdeal := by
  intro m ρ m' ρ' _ hagree
  refine ⟨fun c => Cert.KernelIdeal.Value.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)),
    Cert.KernelIdeal.Value.run m ρ, ?_⟩
  refine (θ_run Cert.ReferenceIdeal.defs _ _).mono (fun _ h c => ⟨(h c).1.trans ?_, (h c).2⟩)
    (Cert.ReferenceIdeal.RunW.run (F := Ideal) m' ρ')
  obtain ⟨h0, h1, h2, h3, h4, h5, h6, h7, h8, h9, h10, h11, h12⟩ := hagree c
  rw [h0, h1, h2, h3, h4, h5, h6, h7, h8, h9, h10, h11, h12]
  exact (Cert.Bridge.layer_eq _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
